-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x3 : Shape := ⟨4, ![1, 256, 256, 3]⟩
abbrev S16x11x256x256x2 : Shape := ⟨5, ![16, 11, 256, 256, 2]⟩
abbrev S_ : Shape := ⟨0, ![]⟩

class Facts : Prop where
  bcast_S_S1x256x256x3 : S_.BroadcastsInDim S1x256x256x3 (![] : Fin 0 → Fin S1x256x256x3.rank)
  reducesTo_S1x256x256x3_S_d0_1_2_3 : S1x256x256x3.ReducesTo [0, 1, 2, 3] S_
  h_S_ : 0 < S_.numel
  bcast_S_S16x11x256x256x2 : S_.BroadcastsInDim S16x11x256x256x2 (![] : Fin 0 → Fin S16x11x256x256x2.rank)
  reducesTo_S16x11x256x256x2_S_d0_1_2_3_4 : S16x11x256x256x2.ReducesTo [0, 1, 2, 3, 4] S_

variable [Facts]

def fn {F : FTy → Type} [FloatOps F] (main_arg0 : FVec F S1x256x256x3 .f32) (main_arg1 : FVec F S16x11x256x256x2 .f32) : IVec S_ 1 :=
  let main_v0 : FVec F S1x256x256x3 .f32 := Host.absf main_arg0
  let main_cst : FVec F S_ .f32 := constant S_ .f32 0x7F800000#32
  let main_v1 : FVec F S1x256x256x3 .f32 := broadcastInDim S1x256x256x3 ![] bcast_S_S1x256x256x3 main_cst
  let main_v2 : IVec S1x256x256x3 1 := cmpf .olt main_v0 main_v1
  let main_c : IVec S_ 1 := constantI S_ 1 1#1
  let main_v3 : IVec S_ 1 := (fun x v => Host.reduce IntOp.andi x v reducesTo_S1x256x256x3_S_d0_1_2_3 h_S_) main_v2 main_c
  let main_v4 : FVec F S16x11x256x256x2 .f32 := Host.absf main_arg1
  let main_cst_0 : FVec F S_ .f32 := constant S_ .f32 0x7F800000#32
  let main_v5 : FVec F S16x11x256x256x2 .f32 := broadcastInDim S16x11x256x256x2 ![] bcast_S_S16x11x256x256x2 main_cst_0
  let main_v6 : IVec S16x11x256x256x2 1 := cmpf .olt main_v4 main_v5
  let main_c_1 : IVec S_ 1 := constantI S_ 1 1#1
  let main_v7 : IVec S_ 1 := (fun x v => Host.reduce IntOp.andi x v reducesTo_S16x11x256x256x2_S_d0_1_2_3_4 h_S_) main_v6 main_c_1
  let main_v8 : IVec S_ 1 := andi main_v3 main_v7
  main_v8
-- ==== Kernel.lean ====
abbrev S1x256x256x3 : Shape := ⟨4, ![1, 256, 256, 3]⟩
abbrev S16x11x256x256x2 : Shape := ⟨5, ![16, 11, 256, 256, 2]⟩
abbrev S256x256x3 : Shape := ⟨3, ![256, 256, 3]⟩
abbrev S176x256x256x2 : Shape := ⟨4, ![176, 256, 256, 2]⟩
abbrev S176x256x256x1 : Shape := ⟨4, ![176, 256, 256, 1]⟩
abbrev S176x256x256 : Shape := ⟨3, ![176, 256, 256]⟩
abbrev S_ : Shape := ⟨0, ![]⟩
abbrev S176x256x256x3 : Shape := ⟨4, ![176, 256, 256, 3]⟩
abbrev S3x176x256x256 : Shape := ⟨4, ![3, 176, 256, 256]⟩
abbrev S12x176x256x256 : Shape := ⟨4, ![12, 176, 256, 256]⟩
abbrev S1x176x256x256 : Shape := ⟨4, ![1, 176, 256, 256]⟩
abbrev S4x176x256x256 : Shape := ⟨4, ![4, 176, 256, 256]⟩
abbrev S4x2x256x256 : Shape := ⟨4, ![4, 2, 256, 256]⟩
abbrev S12x2x256x256 : Shape := ⟨4, ![12, 2, 256, 256]⟩
abbrev S3x2x256x256 : Shape := ⟨4, ![3, 2, 256, 256]⟩
abbrev S1x2x256x256 : Shape := ⟨4, ![1, 2, 256, 256]⟩
abbrev S2x256x256 : Shape := ⟨3, ![2, 256, 256]⟩
abbrev S16x11x256x256x3 : Shape := ⟨5, ![16, 11, 256, 256, 3]⟩

abbrev nBuf : Space → Nat
  | .hbm => 221
  | .vmem => 6
  | .smem => 0
  | _ => 0

abbrev hbmTy0_0 (i : Nat) : BufTy := match i % 128 with
  | 0 => ⟨S1x256x256x3, .f32⟩
  | 1 => ⟨S16x11x256x256x2, .f32⟩
  | 2 => ⟨S256x256x3, .f32⟩
  | 3 => ⟨S176x256x256x2, .f32⟩
  | 4 => ⟨S176x256x256x1, .f32⟩
  | 5 => ⟨S176x256x256, .f32⟩
  | 6 => ⟨S_, .f32⟩
  | 7 => ⟨S176x256x256, .f32⟩
  | 8 => ⟨S176x256x256, .f32⟩
  | 9 => ⟨S_, .f32⟩
  | 10 => ⟨S176x256x256, .f32⟩
  | 11 => ⟨S176x256x256, .f32⟩
  | 12 => ⟨S_, .f32⟩
  | 13 => ⟨S176x256x256, .f32⟩
  | 14 => ⟨S176x256x256, .f32⟩
  | 15 => ⟨S176x256x256x1, .f32⟩
  | 16 => ⟨S176x256x256, .f32⟩
  | 17 => ⟨S_, .f32⟩
  | 18 => ⟨S176x256x256, .f32⟩
  | 19 => ⟨S176x256x256, .f32⟩
  | 20 => ⟨S_, .f32⟩
  | 21 => ⟨S176x256x256, .f32⟩
  | 22 => ⟨S176x256x256, .f32⟩
  | 23 => ⟨S_, .f32⟩
  | 24 => ⟨S176x256x256, .f32⟩
  | 25 => ⟨S176x256x256, .f32⟩
  | 26 => ⟨S176x256x256, .f32⟩
  | 27 => ⟨S176x256x256, .f32⟩
  | 28 => ⟨S176x256x256, .f32⟩
  | 29 => ⟨S_, .f32⟩
  | 30 => ⟨S176x256x256, .f32⟩
  | 31 => ⟨S176x256x256, .f32⟩
  | 32 => ⟨S176x256x256, .f32⟩
  | 33 => ⟨S_, .f32⟩
  | 34 => ⟨S176x256x256, .f32⟩
  | 35 => ⟨S176x256x256, .f32⟩
  | 36 => ⟨S176x256x256, .f32⟩
  | 37 => ⟨S176x256x256, .f32⟩
  | 38 => ⟨S176x256x256, .f32⟩
  | 39 => ⟨S176x256x256, .f32⟩
  | 40 => ⟨S176x256x256, .i32⟩
  | 41 => ⟨S176x256x256, .i32⟩
  | 42 => ⟨S_, .i32⟩
  | 43 => ⟨S176x256x256, .i32⟩
  | 44 => ⟨S176x256x256, .i32⟩
  | 45 => ⟨S_, .i32⟩
  | 46 => ⟨S176x256x256, .i32⟩
  | 47 => ⟨S176x256x256, .i32⟩
  | 48 => ⟨S_, .i32⟩
  | 49 => ⟨S176x256x256, .i32⟩
  | 50 => ⟨S176x256x256, .i1⟩
  | 51 => ⟨S_, .i32⟩
  | 52 => ⟨S176x256x256, .i32⟩
  | 53 => ⟨S176x256x256, .i1⟩
  | 54 => ⟨S176x256x256, .i1⟩
  | 55 => ⟨S_, .i32⟩
  | 56 => ⟨S176x256x256, .i32⟩
  | 57 => ⟨S176x256x256, .i1⟩
  | 58 => ⟨S_, .i32⟩
  | 59 => ⟨S176x256x256, .i32⟩
  | 60 => ⟨S176x256x256, .i1⟩
  | 61 => ⟨S176x256x256, .i1⟩
  | 62 => ⟨S_, .i32⟩
  | 63 => ⟨S176x256x256, .i32⟩
  | 64 => ⟨S176x256x256, .i1⟩
  | 65 => ⟨S_, .i32⟩
  | 66 => ⟨S176x256x256, .i32⟩
  | 67 => ⟨S176x256x256, .i1⟩
  | 68 => ⟨S176x256x256, .i1⟩
  | 69 => ⟨S_, .i32⟩
  | 70 => ⟨S176x256x256, .i32⟩
  | 71 => ⟨S176x256x256, .i1⟩
  | 72 => ⟨S_, .i32⟩
  | 73 => ⟨S176x256x256, .i32⟩
  | 74 => ⟨S176x256x256, .i1⟩
  | 75 => ⟨S176x256x256, .i1⟩
  | 76 => ⟨S176x256x256, .i1⟩
  | 77 => ⟨S_, .i32⟩
  | 78 => ⟨S_, .i32⟩
  | 79 => ⟨S176x256x256, .i32⟩
  | 80 => ⟨S176x256x256, .i32⟩
  | 81 => ⟨S_, .i32⟩
  | 82 => ⟨S_, .i32⟩
  | 83 => ⟨S176x256x256, .i32⟩
  | 84 => ⟨S176x256x256, .i32⟩
  | 85 => ⟨S_, .i32⟩
  | 86 => ⟨S176x256x256, .i32⟩
  | 87 => ⟨S176x256x256, .i1⟩
  | 88 => ⟨S_, .i32⟩
  | 89 => ⟨S176x256x256, .i32⟩
  | 90 => ⟨S176x256x256, .i32⟩
  | 91 => ⟨S176x256x256, .i32⟩
  | 92 => ⟨S_, .i32⟩
  | 93 => ⟨S176x256x256, .i32⟩
  | 94 => ⟨S176x256x256, .i1⟩
  | 95 => ⟨S_, .i32⟩
  | 96 => ⟨S176x256x256, .i32⟩
  | 97 => ⟨S176x256x256, .i32⟩
  | 98 => ⟨S176x256x256, .i32⟩
  | 99 => ⟨S176x256x256x1, .i32⟩
  | 100 => ⟨S176x256x256x1, .i32⟩
  | 101 => ⟨S176x256x256x2, .i32⟩
  | 102 => ⟨S176x256x256x3, .f32⟩
  | 103 => ⟨S176x256x256x1, .i1⟩
  | 104 => ⟨S_, .f32⟩
  | 105 => ⟨S_, .f32⟩
  | 106 => ⟨S176x256x256x3, .i1⟩
  | 107 => ⟨S176x256x256x3, .f32⟩
  | 108 => ⟨S176x256x256x3, .f32⟩
  | 109 => ⟨S176x256x256, .i1⟩
  | 110 => ⟨S_, .i32⟩
  | 111 => ⟨S_, .i32⟩
  | 112 => ⟨S176x256x256, .i32⟩
  | 113 => ⟨S176x256x256, .i32⟩
  | 114 => ⟨S_, .i32⟩
  | 115 => ⟨S_, .i32⟩
  | 116 => ⟨S176x256x256, .i32⟩
  | 117 => ⟨S176x256x256, .i32⟩
  | 118 => ⟨S_, .i32⟩
  | 119 => ⟨S176x256x256, .i32⟩
  | 120 => ⟨S176x256x256, .i1⟩
  | 121 => ⟨S_, .i32⟩
  | 122 => ⟨S176x256x256, .i32⟩
  | 123 => ⟨S176x256x256, .i32⟩
  | 124 => ⟨S176x256x256, .i32⟩
  | 125 => ⟨S_, .i32⟩
  | 126 => ⟨S176x256x256, .i32⟩
  | 127 => ⟨S176x256x256, .i1⟩
  | _ => ⟨S1x256x256x3, .f32⟩

abbrev hbmTy0_1 (i : Nat) : BufTy := match i % 128 with
  | 0 => ⟨S_, .i32⟩
  | 1 => ⟨S176x256x256, .i32⟩
  | 2 => ⟨S176x256x256, .i32⟩
  | 3 => ⟨S176x256x256, .i32⟩
  | 4 => ⟨S176x256x256x1, .i32⟩
  | 5 => ⟨S176x256x256x1, .i32⟩
  | 6 => ⟨S176x256x256x2, .i32⟩
  | 7 => ⟨S176x256x256x3, .f32⟩
  | 8 => ⟨S176x256x256x1, .i1⟩
  | 9 => ⟨S_, .f32⟩
  | 10 => ⟨S_, .f32⟩
  | 11 => ⟨S176x256x256x3, .i1⟩
  | 12 => ⟨S176x256x256x3, .f32⟩
  | 13 => ⟨S176x256x256x3, .f32⟩
  | 14 => ⟨S176x256x256, .i1⟩
  | 15 => ⟨S_, .i32⟩
  | 16 => ⟨S_, .i32⟩
  | 17 => ⟨S176x256x256, .i32⟩
  | 18 => ⟨S176x256x256, .i32⟩
  | 19 => ⟨S_, .i32⟩
  | 20 => ⟨S_, .i32⟩
  | 21 => ⟨S176x256x256, .i32⟩
  | 22 => ⟨S176x256x256, .i32⟩
  | 23 => ⟨S_, .i32⟩
  | 24 => ⟨S176x256x256, .i32⟩
  | 25 => ⟨S176x256x256, .i1⟩
  | 26 => ⟨S_, .i32⟩
  | 27 => ⟨S176x256x256, .i32⟩
  | 28 => ⟨S176x256x256, .i32⟩
  | 29 => ⟨S176x256x256, .i32⟩
  | 30 => ⟨S_, .i32⟩
  | 31 => ⟨S176x256x256, .i32⟩
  | 32 => ⟨S176x256x256, .i1⟩
  | 33 => ⟨S_, .i32⟩
  | 34 => ⟨S176x256x256, .i32⟩
  | 35 => ⟨S176x256x256, .i32⟩
  | 36 => ⟨S176x256x256, .i32⟩
  | 37 => ⟨S176x256x256x1, .i32⟩
  | 38 => ⟨S176x256x256x1, .i32⟩
  | 39 => ⟨S176x256x256x2, .i32⟩
  | 40 => ⟨S176x256x256x3, .f32⟩
  | 41 => ⟨S176x256x256x1, .i1⟩
  | 42 => ⟨S_, .f32⟩
  | 43 => ⟨S_, .f32⟩
  | 44 => ⟨S176x256x256x3, .i1⟩
  | 45 => ⟨S176x256x256x3, .f32⟩
  | 46 => ⟨S176x256x256x3, .f32⟩
  | 47 => ⟨S176x256x256, .i1⟩
  | 48 => ⟨S_, .i32⟩
  | 49 => ⟨S_, .i32⟩
  | 50 => ⟨S176x256x256, .i32⟩
  | 51 => ⟨S176x256x256, .i32⟩
  | 52 => ⟨S_, .i32⟩
  | 53 => ⟨S_, .i32⟩
  | 54 => ⟨S176x256x256, .i32⟩
  | 55 => ⟨S176x256x256, .i32⟩
  | 56 => ⟨S_, .i32⟩
  | 57 => ⟨S176x256x256, .i32⟩
  | 58 => ⟨S176x256x256, .i1⟩
  | 59 => ⟨S_, .i32⟩
  | 60 => ⟨S176x256x256, .i32⟩
  | 61 => ⟨S176x256x256, .i32⟩
  | 62 => ⟨S176x256x256, .i32⟩
  | 63 => ⟨S_, .i32⟩
  | 64 => ⟨S176x256x256, .i32⟩
  | 65 => ⟨S176x256x256, .i1⟩
  | 66 => ⟨S_, .i32⟩
  | 67 => ⟨S176x256x256, .i32⟩
  | 68 => ⟨S176x256x256, .i32⟩
  | 69 => ⟨S176x256x256, .i32⟩
  | 70 => ⟨S176x256x256x1, .i32⟩
  | 71 => ⟨S176x256x256x1, .i32⟩
  | 72 => ⟨S176x256x256x2, .i32⟩
  | 73 => ⟨S176x256x256x3, .f32⟩
  | 74 => ⟨S176x256x256x1, .i1⟩
  | 75 => ⟨S_, .f32⟩
  | 76 => ⟨S_, .f32⟩
  | 77 => ⟨S176x256x256x3, .i1⟩
  | 78 => ⟨S176x256x256x3, .f32⟩
  | 79 => ⟨S176x256x256x3, .f32⟩
  | 80 => ⟨S3x176x256x256, .f32⟩
  | 81 => ⟨S3x176x256x256, .f32⟩
  | 82 => ⟨S3x176x256x256, .f32⟩
  | 83 => ⟨S3x176x256x256, .f32⟩
  | 84 => ⟨S12x176x256x256, .f32⟩
  | 85 => ⟨S1x176x256x256, .f32⟩
  | 86 => ⟨S1x176x256x256, .f32⟩
  | 87 => ⟨S1x176x256x256, .f32⟩
  | 88 => ⟨S1x176x256x256, .f32⟩
  | 89 => ⟨S4x176x256x256, .f32⟩
  | 90 => ⟨S3x176x256x256, .f32⟩
  | 91 => ⟨S176x256x256x3, .f32⟩
  | 92 => ⟨S16x11x256x256x3, .f32⟩
  | _ => ⟨S1x256x256x3, .f32⟩

abbrev hbmTy (i : Nat) : BufTy := match i / 128 with
  | 0 => hbmTy0_0 i
  | 1 => hbmTy0_1 i
  | _ => ⟨S1x256x256x3, .f32⟩

abbrev bufTy : (tb : Table) → Fin (tcTables nBuf tb) → BufTy
  | .hbm, ⟨i, _⟩ => hbmTy i
  | .local _ .vmem, ⟨0, _⟩ => ⟨S4x2x256x256, .f32⟩
  | .local _ .vmem, ⟨1, _⟩ => ⟨S4x2x256x256, .f32⟩
  | .local _ .vmem, ⟨2, _⟩ => ⟨S12x2x256x256, .f32⟩
  | .local _ .vmem, ⟨3, _⟩ => ⟨S12x2x256x256, .f32⟩
  | .local _ .vmem, ⟨4, _⟩ => ⟨S3x2x256x256, .f32⟩
  | .local _ .vmem, ⟨5, _⟩ => ⟨S3x2x256x256, .f32⟩
  | _, _ => ⟨S1x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_c_7 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_c_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_12 : Ref sig .tc := ⟨.hbm, 62, rfl⟩
abbrev main_v46 : Ref sig .tc := ⟨.hbm, 63, rfl⟩
abbrev main_v47 : Ref sig .tc := ⟨.hbm, 64, rfl⟩
abbrev main_c_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_14 : Ref sig .tc := ⟨.hbm, 69, rfl⟩
abbrev main_v51 : Ref sig .tc := ⟨.hbm, 70, rfl⟩
abbrev main_v52 : Ref sig .tc := ⟨.hbm, 71, rfl⟩
abbrev main_c_15 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_16 : Ref sig .tc := ⟨.hbm, 77, rfl⟩
abbrev main_call0_v0 : Ref sig .tc := ⟨.hbm, 78, rfl⟩
abbrev main_call0_v1 : Ref sig .tc := ⟨.hbm, 79, rfl⟩
abbrev main_v57 : Ref sig .tc := ⟨.hbm, 80, rfl⟩
abbrev main_c_17 : Ref sig .tc := ⟨.hbm, 81, rfl⟩
abbrev main_call1_v0 : Ref sig .tc := ⟨.hbm, 82, rfl⟩
abbrev main_call1_v1 : Ref sig .tc := ⟨.hbm, 83, rfl⟩
abbrev main_v58 : Ref sig .tc := ⟨.hbm, 84, rfl⟩
abbrev main_c_18 : Ref sig .tc := ⟨.hbm, 85, rfl⟩
abbrev main_v59 : Ref sig .tc := ⟨.hbm, 86, rfl⟩
abbrev main_v60 : Ref sig .tc := ⟨.hbm, 87, rfl⟩
abbrev main_c_19 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_20 : Ref sig .tc := ⟨.hbm, 92, rfl⟩
abbrev main_v64 : Ref sig .tc := ⟨.hbm, 93, rfl⟩
abbrev main_v65 : Ref sig .tc := ⟨.hbm, 94, rfl⟩
abbrev main_c_21 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v74 : Ref sig .tc := ⟨.hbm, 108, rfl⟩
abbrev main_v75 : Ref sig .tc := ⟨.hbm, 109, rfl⟩
abbrev main_c_23 : Ref sig .tc := ⟨.hbm, 110, rfl⟩
abbrev main_call3_v0 : Ref sig .tc := ⟨.hbm, 111, rfl⟩
abbrev main_call3_v1 : Ref sig .tc := ⟨.hbm, 112, rfl⟩
abbrev main_v76 : Ref sig .tc := ⟨.hbm, 113, rfl⟩
abbrev main_c_24 : Ref sig .tc := ⟨.hbm, 114, rfl⟩
abbrev main_call4_v0 : Ref sig .tc := ⟨.hbm, 115, rfl⟩
abbrev main_call4_v1 : Ref sig .tc := ⟨.hbm, 116, rfl⟩
abbrev main_v77 : Ref sig .tc := ⟨.hbm, 117, rfl⟩
abbrev main_c_25 : Ref sig .tc := ⟨.hbm, 118, rfl⟩
abbrev main_v78 : Ref sig .tc := ⟨.hbm, 119, rfl⟩
abbrev main_v79 : Ref sig .tc := ⟨.hbm, 120, rfl⟩
abbrev main_c_26 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_27 : Ref sig .tc := ⟨.hbm, 125, rfl⟩
abbrev main_v83 : Ref sig .tc := ⟨.hbm, 126, rfl⟩
abbrev main_v84 : Ref sig .tc := ⟨.hbm, 127, rfl⟩
abbrev main_c_28 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_29 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_v93 : Ref sig .tc := ⟨.hbm, 141, rfl⟩
abbrev main_v94 : Ref sig .tc := ⟨.hbm, 142, rfl⟩
abbrev main_c_30 : Ref sig .tc := ⟨.hbm, 143, rfl⟩
abbrev main_call6_v0 : Ref sig .tc := ⟨.hbm, 144, rfl⟩
abbrev main_call6_v1 : Ref sig .tc := ⟨.hbm, 145, rfl⟩
abbrev main_v95 : Ref sig .tc := ⟨.hbm, 146, rfl⟩
abbrev main_c_31 : Ref sig .tc := ⟨.hbm, 147, rfl⟩
abbrev main_call7_v0 : Ref sig .tc := ⟨.hbm, 148, rfl⟩
abbrev main_call7_v1 : Ref sig .tc := ⟨.hbm, 149, rfl⟩
abbrev main_v96 : Ref sig .tc := ⟨.hbm, 150, rfl⟩
abbrev main_c_32 : Ref sig .tc := ⟨.hbm, 151, rfl⟩
abbrev main_v97 : Ref sig .tc := ⟨.hbm, 152, rfl⟩
abbrev main_v98 : Ref sig .tc := ⟨.hbm, 153, rfl⟩
abbrev main_c_33 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_c_34 : Ref sig .tc := ⟨.hbm, 158, rfl⟩
abbrev main_v102 : Ref sig .tc := ⟨.hbm, 159, rfl⟩
abbrev main_v103 : Ref sig .tc := ⟨.hbm, 160, rfl⟩
abbrev main_c_35 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_36 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_v112 : Ref sig .tc := ⟨.hbm, 174, rfl⟩
abbrev main_v113 : Ref sig .tc := ⟨.hbm, 175, rfl⟩
abbrev main_c_37 : Ref sig .tc := ⟨.hbm, 176, rfl⟩
abbrev main_call9_v0 : Ref sig .tc := ⟨.hbm, 177, rfl⟩
abbrev main_call9_v1 : Ref sig .tc := ⟨.hbm, 178, rfl⟩
abbrev main_v114 : Ref sig .tc := ⟨.hbm, 179, rfl⟩
abbrev main_c_38 : Ref sig .tc := ⟨.hbm, 180, rfl⟩
abbrev main_call10_v0 : Ref sig .tc := ⟨.hbm, 181, rfl⟩
abbrev main_call10_v1 : Ref sig .tc := ⟨.hbm, 182, rfl⟩
abbrev main_v115 : Ref sig .tc := ⟨.hbm, 183, rfl⟩
abbrev main_c_39 : Ref sig .tc := ⟨.hbm, 184, rfl⟩
abbrev main_v116 : Ref sig .tc := ⟨.hbm, 185, rfl⟩
abbrev main_v117 : Ref sig .tc := ⟨.hbm, 186, rfl⟩
abbrev main_c_40 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_c_41 : Ref sig .tc := ⟨.hbm, 191, rfl⟩
abbrev main_v121 : Ref sig .tc := ⟨.hbm, 192, rfl⟩
abbrev main_v122 : Ref sig .tc := ⟨.hbm, 193, rfl⟩
abbrev main_c_42 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_43 : Ref sig .tc := ⟨.hbm, 203, rfl⟩
abbrev main_call11_v0 : Ref sig .tc := ⟨.hbm, 204, rfl⟩
abbrev main_call11_v1 : Ref sig .tc := ⟨.hbm, 205, rfl⟩
abbrev main_call11_v2 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![88], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x256x256x3_S256x256x3 : S1x256x256x3.ShapeCasts S256x256x3
  shapeCasts_S16x11x256x256x2_S176x256x256x2 : S16x11x256x256x2.ShapeCasts S176x256x256x2
  slices_S176x256x256x2_S176x256x256x1_0_0_0_0 : S176x256x256x2.Slices ![0, 0, 0, 0] S176x256x256x1
  shapeCasts_S176x256x256x1_S176x256x256 : S176x256x256x1.ShapeCasts S176x256x256
  bcast_S_S176x256x256 : S_.BroadcastsInDim S176x256x256 (![] : Fin 0 → Fin S176x256x256.rank)
  slices_S176x256x256x2_S176x256x256x1_0_0_0_1 : S176x256x256x2.Slices ![0, 0, 0, 1] S176x256x256x1
  bcast_S176x256x256_S176x256x256x1_0_1_2 : S176x256x256.BroadcastsInDim S176x256x256x1 (![0, 1, 2] : Fin 3 → Fin S176x256x256x1.rank)
  concatenates_S176x256x256x1_S176x256x256x1_S176x256x256x2_d3 : Shape.Concatenates [S176x256x256x1, S176x256x256x1] S176x256x256x2 3
  bcast_S176x256x256x1_S176x256x256x3_0_1_2_3 : S176x256x256x1.BroadcastsInDim S176x256x256x3 (![0, 1, 2, 3] : Fin 4 → Fin S176x256x256x3.rank)
  bcast_S_S176x256x256x3 : S_.BroadcastsInDim S176x256x256x3 (![] : Fin 0 → Fin S176x256x256x3.rank)
  transposes_S176x256x256x3_S3x176x256x256_3_0_1_2 : S176x256x256x3.Transposes [3, 0, 1, 2] S3x176x256x256
  concatenates_S3x176x256x256_S3x176x256x256_S3x176x256x256_S3x176x256x256_S12x176x256x256_d0 : Shape.Concatenates [S3x176x256x256, S3x176x256x256, S3x176x256x256, S3x176x256x256] S12x176x256x256 0
  bcast_S176x256x256_S1x176x256x256_1_2_3 : S176x256x256.BroadcastsInDim S1x176x256x256 (![1, 2, 3] : Fin 3 → Fin S1x176x256x256.rank)
  concatenates_S1x176x256x256_S1x176x256x256_S1x176x256x256_S1x176x256x256_S4x176x256x256_d0 : Shape.Concatenates [S1x176x256x256, S1x176x256x256, S1x176x256x256, S1x176x256x256] S4x176x256x256 0
  inb_S4x2x256x256_S4x2x256x256_0_0_0_0 : ∀ a, (![0, 0, 0, 0] : Fin 4 → Nat) a + S4x2x256x256.size a ≤ S4x2x256x256.size a
  h_S4x2x256x256 : 0 < S4x2x256x256.numel
  shapeCasts_S4x2x256x256_S4x2x256x256 : S4x2x256x256.ShapeCasts S4x2x256x256
  inb_S12x2x256x256_S12x2x256x256_0_0_0_0 : ∀ a, (![0, 0, 0, 0] : Fin 4 → Nat) a + S12x2x256x256.size a ≤ S12x2x256x256.size a
  h_S12x2x256x256 : 0 < S12x2x256x256.numel
  shapeCasts_S12x2x256x256_S12x2x256x256 : S12x2x256x256.ShapeCasts S12x2x256x256
  slices_S4x2x256x256_o0_0_0_0_S1x2x256x256 : S4x2x256x256.Slices ![0, 0, 0, 0] S1x2x256x256
  shapeCasts_S1x2x256x256_S2x256x256 : S1x2x256x256.ShapeCasts S2x256x256
  slices_S4x2x256x256_o1_0_0_0_S1x2x256x256 : S4x2x256x256.Slices ![1, 0, 0, 0] S1x2x256x256
  slices_S4x2x256x256_o2_0_0_0_S1x2x256x256 : S4x2x256x256.Slices ![2, 0, 0, 0] S1x2x256x256
  slices_S4x2x256x256_o3_0_0_0_S1x2x256x256 : S4x2x256x256.Slices ![3, 0, 0, 0] S1x2x256x256
  slices_S12x2x256x256_o0_0_0_0_S3x2x256x256 : S12x2x256x256.Slices ![0, 0, 0, 0] S3x2x256x256
  slices_S12x2x256x256_o3_0_0_0_S3x2x256x256 : S12x2x256x256.Slices ![3, 0, 0, 0] S3x2x256x256
  slices_S12x2x256x256_o6_0_0_0_S3x2x256x256 : S12x2x256x256.Slices ![6, 0, 0, 0] S3x2x256x256
  slices_S12x2x256x256_o9_0_0_0_S3x2x256x256 : S12x2x256x256.Slices ![9, 0, 0, 0] S3x2x256x256
  shapeCasts_S2x256x256_S1x2x256x256 : S2x256x256.ShapeCasts S1x2x256x256
  broadcasts_S1x2x256x256_S3x2x256x256 : S1x2x256x256.Broadcasts S3x2x256x256
  inb_S3x2x256x256_S3x2x256x256_0_0_0_0 : ∀ a, (![0, 0, 0, 0] : Fin 4 → Nat) a + S3x2x256x256.size a ≤ S3x2x256x256.size a
  h_S3x2x256x256 : 0 < S3x2x256x256.numel
  transposes_S3x176x256x256_S176x256x256x3_1_2_3_0 : S3x176x256x256.Transposes [1, 2, 3, 0] S176x256x256x3
  shapeCasts_S176x256x256x3_S16x11x256x256x3 : S176x256x256x3.ShapeCasts S16x11x256x256x3
  gather_S256x256x3_S176x256x256x2_S176x256x256x3_3_01_n_n_01_3_113_wf : GatherDims.WF S256x256x3 S176x256x256x2 S176x256x256x3 [3] [0, 1] [] [0, 1] [] 3 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x256x256.size a ≤ S4x176x256x256.size a
  hwx0_0 : ∀ i : grid0.Coords, EltTy.bits .f32 = 32 ∨ (Rect.block (s := S4x176x256x256) S4x2x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12x2x256x256.size a ≤ S12x176x256x256.size a
  hwx0_1 : ∀ i : grid0.Coords, EltTy.bits .f32 = 32 ∨ (Rect.block (s := S12x176x256x256) S12x2x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2x256x256.size a ≤ S3x176x256x256.size a
  hwx0_2 : ∀ i : grid0.Coords, EltTy.bits .f32 = 32 ∨ (Rect.block (s := S3x176x256x256) S3x2x256x256.size (cc0_transform_2 i) (hinb0_2 i)).WholeWords (EltTy.packing .f32)

variable [Facts₀]

def gather_S256x256x3_S176x256x256x2_S176x256x256x3_3_01_n_n_01_3_113 : GatherDims S256x256x3 S176x256x256x2 S176x256x256x3 where
  offsetDims := [3]
  collapsedSliceDims := [0, 1]
  operandBatchingDims := []
  startIndicesBatchingDims := []
  startIndexMap := [0, 1]
  indexVectorDim := 3
  sliceSizes := ![1, 1, 3]
  wf := gather_S256x256x3_S176x256x256x2_S176x256x256x3_3_01_n_n_01_3_113_wf

abbrev win0_0 : Pipeline.Window sig grid0 :=
  Pipeline.Window.ofSpec (Memref.whole main_v141) S4x2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v136) S12x2x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v142) S3x2x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x256x3 : Shape := ⟨4, ![1, 256, 256, 3]⟩
abbrev S16x11x256x256x2 : Shape := ⟨5, ![16, 11, 256, 256, 2]⟩
abbrev S1x1x256x256x3 : Shape := ⟨5, ![1, 1, 256, 256, 3]⟩
abbrev S16x11x256x256x3 : Shape := ⟨5, ![16, 11, 256, 256, 3]⟩
abbrev S176x256x256x3 : Shape := ⟨4, ![176, 256, 256, 3]⟩
abbrev S176x256x256x2 : Shape := ⟨4, ![176, 256, 256, 2]⟩
abbrev S176x256x256x1 : Shape := ⟨4, ![176, 256, 256, 1]⟩
abbrev S176x256x256 : Shape := ⟨3, ![176, 256, 256]⟩
abbrev S_ : Shape := ⟨0, ![]⟩
abbrev S176 : Shape := ⟨1, ![176]⟩
abbrev S176x1x1 : Shape := ⟨3, ![176, 1, 1]⟩

abbrev nBuf : Space → Nat
  | .hbm => 264
  | .vmem => 0
  | .smem => 0
  | _ => 0

abbrev hbmTy0_0 (i : Nat) : BufTy := match i % 128 with
  | 0 => ⟨S1x256x256x3, .f32⟩
  | 1 => ⟨S16x11x256x256x2, .f32⟩
  | 2 => ⟨S1x1x256x256x3, .f32⟩
  | 3 => ⟨S16x11x256x256x3, .f32⟩
  | 4 => ⟨S176x256x256x3, .f32⟩
  | 5 => ⟨S176x256x256x2, .f32⟩
  | 6 => ⟨S176x256x256x1, .f32⟩
  | 7 => ⟨S176x256x256, .f32⟩
  | 8 => ⟨S_, .f32⟩
  | 9 => ⟨S176x256x256, .f32⟩
  | 10 => ⟨S176x256x256, .f32⟩
  | 11 => ⟨S_, .f32⟩
  | 12 => ⟨S176x256x256, .f32⟩
  | 13 => ⟨S176x256x256, .f32⟩
  | 14 => ⟨S_, .f32⟩
  | 15 => ⟨S176x256x256, .f32⟩
  | 16 => ⟨S176x256x256, .f32⟩
  | 17 => ⟨S176x256x256x1, .f32⟩
  | 18 => ⟨S176x256x256, .f32⟩
  | 19 => ⟨S_, .f32⟩
  | 20 => ⟨S176x256x256, .f32⟩
  | 21 => ⟨S176x256x256, .f32⟩
  | 22 => ⟨S_, .f32⟩
  | 23 => ⟨S176x256x256, .f32⟩
  | 24 => ⟨S176x256x256, .f32⟩
  | 25 => ⟨S_, .f32⟩
  | 26 => ⟨S176x256x256, .f32⟩
  | 27 => ⟨S176x256x256, .f32⟩
  | 28 => ⟨S176x256x256, .f32⟩
  | 29 => ⟨S176x256x256, .f32⟩
  | 30 => ⟨S176x256x256, .f32⟩
  | 31 => ⟨S_, .f32⟩
  | 32 => ⟨S176x256x256, .f32⟩
  | 33 => ⟨S176x256x256, .f32⟩
  | 34 => ⟨S176x256x256, .f32⟩
  | 35 => ⟨S_, .f32⟩
  | 36 => ⟨S176x256x256, .f32⟩
  | 37 => ⟨S176x256x256, .f32⟩
  | 38 => ⟨S176x256x256, .f32⟩
  | 39 => ⟨S176x256x256, .f32⟩
  | 40 => ⟨S176x256x256, .f32⟩
  | 41 => ⟨S176x256x256, .f32⟩
  | 42 => ⟨S176x256x256, .i32⟩
  | 43 => ⟨S176x256x256, .i32⟩
  | 44 => ⟨S_, .i32⟩
  | 45 => ⟨S176x256x256, .i32⟩
  | 46 => ⟨S176x256x256, .i32⟩
  | 47 => ⟨S_, .i32⟩
  | 48 => ⟨S176x256x256, .i32⟩
  | 49 => ⟨S176x256x256, .i32⟩
  | 50 => ⟨S_, .i32⟩
  | 51 => ⟨S176x256x256, .i32⟩
  | 52 => ⟨S176x256x256, .i1⟩
  | 53 => ⟨S_, .i32⟩
  | 54 => ⟨S176x256x256, .i32⟩
  | 55 => ⟨S176x256x256, .i1⟩
  | 56 => ⟨S176x256x256, .i1⟩
  | 57 => ⟨S_, .i32⟩
  | 58 => ⟨S176x256x256, .i32⟩
  | 59 => ⟨S176x256x256, .i1⟩
  | 60 => ⟨S_, .i32⟩
  | 61 => ⟨S176x256x256, .i32⟩
  | 62 => ⟨S176x256x256, .i1⟩
  | 63 => ⟨S176x256x256, .i1⟩
  | 64 => ⟨S_, .i32⟩
  | 65 => ⟨S176x256x256, .i32⟩
  | 66 => ⟨S176x256x256, .i1⟩
  | 67 => ⟨S_, .i32⟩
  | 68 => ⟨S176x256x256, .i32⟩
  | 69 => ⟨S176x256x256, .i1⟩
  | 70 => ⟨S176x256x256, .i1⟩
  | 71 => ⟨S_, .i32⟩
  | 72 => ⟨S176x256x256, .i32⟩
  | 73 => ⟨S176x256x256, .i1⟩
  | 74 => ⟨S_, .i32⟩
  | 75 => ⟨S176x256x256, .i32⟩
  | 76 => ⟨S176x256x256, .i1⟩
  | 77 => ⟨S176x256x256, .i1⟩
  | 78 => ⟨S176, .i32⟩
  | 79 => ⟨S176x1x1, .i32⟩
  | 80 => ⟨S176x256x256, .i1⟩
  | 81 => ⟨S_, .i32⟩
  | 82 => ⟨S_, .i32⟩
  | 83 => ⟨S176x256x256, .i32⟩
  | 84 => ⟨S176x256x256, .i32⟩
  | 85 => ⟨S_, .i32⟩
  | 86 => ⟨S_, .i32⟩
  | 87 => ⟨S176x256x256, .i32⟩
  | 88 => ⟨S176x256x256, .i32⟩
  | 89 => ⟨S_, .i32⟩
  | 90 => ⟨S176x1x1, .i32⟩
  | 91 => ⟨S176x1x1, .i1⟩
  | 92 => ⟨S_, .i32⟩
  | 93 => ⟨S176x1x1, .i32⟩
  | 94 => ⟨S176x1x1, .i32⟩
  | 95 => ⟨S176x1x1, .i32⟩
  | 96 => ⟨S_, .i32⟩
  | 97 => ⟨S176x256x256, .i32⟩
  | 98 => ⟨S176x256x256, .i1⟩
  | 99 => ⟨S_, .i32⟩
  | 100 => ⟨S176x256x256, .i32⟩
  | 101 => ⟨S176x256x256, .i32⟩
  | 102 => ⟨S176x256x256, .i32⟩
  | 103 => ⟨S_, .i32⟩
  | 104 => ⟨S176x256x256, .i32⟩
  | 105 => ⟨S176x256x256, .i1⟩
  | 106 => ⟨S_, .i32⟩
  | 107 => ⟨S176x256x256, .i32⟩
  | 108 => ⟨S176x256x256, .i32⟩
  | 109 => ⟨S176x256x256, .i32⟩
  | 110 => ⟨S176x256x256, .i32⟩
  | 111 => ⟨S176x256x256x1, .i32⟩
  | 112 => ⟨S176x256x256x1, .i32⟩
  | 113 => ⟨S176x256x256x1, .i32⟩
  | 114 => ⟨S176x256x256x3, .i32⟩
  | 115 => ⟨S176x256x256x3, .f32⟩
  | 116 => ⟨S176x256x256x1, .i1⟩
  | 117 => ⟨S_, .f32⟩
  | 118 => ⟨S_, .f32⟩
  | 119 => ⟨S176x256x256x3, .i1⟩
  | 120 => ⟨S176x256x256x3, .f32⟩
  | 121 => ⟨S176x256x256x3, .f32⟩
  | 122 => ⟨S176x256x256, .i1⟩
  | 123 => ⟨S_, .i32⟩
  | 124 => ⟨S_, .i32⟩
  | 125 => ⟨S176x256x256, .i32⟩
  | 126 => ⟨S176x256x256, .i32⟩
  | 127 => ⟨S_, .i32⟩
  | _ => ⟨S1x256x256x3, .f32⟩

abbrev hbmTy0_1 (i : Nat) : BufTy := match i % 128 with
  | 0 => ⟨S_, .i32⟩
  | 1 => ⟨S176x256x256, .i32⟩
  | 2 => ⟨S176x256x256, .i32⟩
  | 3 => ⟨S_, .i32⟩
  | 4 => ⟨S176x1x1, .i32⟩
  | 5 => ⟨S176x1x1, .i1⟩
  | 6 => ⟨S_, .i32⟩
  | 7 => ⟨S176x1x1, .i32⟩
  | 8 => ⟨S176x1x1, .i32⟩
  | 9 => ⟨S176x1x1, .i32⟩
  | 10 => ⟨S_, .i32⟩
  | 11 => ⟨S176x256x256, .i32⟩
  | 12 => ⟨S176x256x256, .i1⟩
  | 13 => ⟨S_, .i32⟩
  | 14 => ⟨S176x256x256, .i32⟩
  | 15 => ⟨S176x256x256, .i32⟩
  | 16 => ⟨S176x256x256, .i32⟩
  | 17 => ⟨S_, .i32⟩
  | 18 => ⟨S176x256x256, .i32⟩
  | 19 => ⟨S176x256x256, .i1⟩
  | 20 => ⟨S_, .i32⟩
  | 21 => ⟨S176x256x256, .i32⟩
  | 22 => ⟨S176x256x256, .i32⟩
  | 23 => ⟨S176x256x256, .i32⟩
  | 24 => ⟨S176x256x256, .i32⟩
  | 25 => ⟨S176x256x256x1, .i32⟩
  | 26 => ⟨S176x256x256x1, .i32⟩
  | 27 => ⟨S176x256x256x1, .i32⟩
  | 28 => ⟨S176x256x256x3, .i32⟩
  | 29 => ⟨S176x256x256x3, .f32⟩
  | 30 => ⟨S176x256x256x1, .i1⟩
  | 31 => ⟨S_, .f32⟩
  | 32 => ⟨S_, .f32⟩
  | 33 => ⟨S176x256x256x3, .i1⟩
  | 34 => ⟨S176x256x256x3, .f32⟩
  | 35 => ⟨S176x256x256x3, .f32⟩
  | 36 => ⟨S176x256x256, .i1⟩
  | 37 => ⟨S_, .i32⟩
  | 38 => ⟨S_, .i32⟩
  | 39 => ⟨S176x256x256, .i32⟩
  | 40 => ⟨S176x256x256, .i32⟩
  | 41 => ⟨S_, .i32⟩
  | 42 => ⟨S_, .i32⟩
  | 43 => ⟨S176x256x256, .i32⟩
  | 44 => ⟨S176x256x256, .i32⟩
  | 45 => ⟨S_, .i32⟩
  | 46 => ⟨S176x1x1, .i32⟩
  | 47 => ⟨S176x1x1, .i1⟩
  | 48 => ⟨S_, .i32⟩
  | 49 => ⟨S176x1x1, .i32⟩
  | 50 => ⟨S176x1x1, .i32⟩
  | 51 => ⟨S176x1x1, .i32⟩
  | 52 => ⟨S_, .i32⟩
  | 53 => ⟨S176x256x256, .i32⟩
  | 54 => ⟨S176x256x256, .i1⟩
  | 55 => ⟨S_, .i32⟩
  | 56 => ⟨S176x256x256, .i32⟩
  | 57 => ⟨S176x256x256, .i32⟩
  | 58 => ⟨S176x256x256, .i32⟩
  | 59 => ⟨S_, .i32⟩
  | 60 => ⟨S176x256x256, .i32⟩
  | 61 => ⟨S176x256x256, .i1⟩
  | 62 => ⟨S_, .i32⟩
  | 63 => ⟨S176x256x256, .i32⟩
  | 64 => ⟨S176x256x256, .i32⟩
  | 65 => ⟨S176x256x256, .i32⟩
  | 66 => ⟨S176x256x256, .i32⟩
  | 67 => ⟨S176x256x256x1, .i32⟩
  | 68 => ⟨S176x256x256x1, .i32⟩
  | 69 => ⟨S176x256x256x1, .i32⟩
  | 70 => ⟨S176x256x256x3, .i32⟩
  | 71 => ⟨S176x256x256x3, .f32⟩
  | 72 => ⟨S176x256x256x1, .i1⟩
  | 73 => ⟨S_, .f32⟩
  | 74 => ⟨S_, .f32⟩
  | 75 => ⟨S176x256x256x3, .i1⟩
  | 76 => ⟨S176x256x256x3, .f32⟩
  | 77 => ⟨S176x256x256x3, .f32⟩
  | 78 => ⟨S176x256x256, .i1⟩
  | 79 => ⟨S_, .i32⟩
  | 80 => ⟨S_, .i32⟩
  | 81 => ⟨S176x256x256, .i32⟩
  | 82 => ⟨S176x256x256, .i32⟩
  | 83 => ⟨S_, .i32⟩
  | 84 => ⟨S_, .i32⟩
  | 85 => ⟨S176x256x256, .i32⟩
  | 86 => ⟨S176x256x256, .i32⟩
  | 87 => ⟨S_, .i32⟩
  | 88 => ⟨S176x1x1, .i32⟩
  | 89 => ⟨S176x1x1, .i1⟩
  | 90 => ⟨S_, .i32⟩
  | 91 => ⟨S176x1x1, .i32⟩
  | 92 => ⟨S176x1x1, .i32⟩
  | 93 => ⟨S176x1x1, .i32⟩
  | 94 => ⟨S_, .i32⟩
  | 95 => ⟨S176x256x256, .i32⟩
  | 96 => ⟨S176x256x256, .i1⟩
  | 97 => ⟨S_, .i32⟩
  | 98 => ⟨S176x256x256, .i32⟩
  | 99 => ⟨S176x256x256, .i32⟩
  | 100 => ⟨S176x256x256, .i32⟩
  | 101 => ⟨S_, .i32⟩
  | 102 => ⟨S176x256x256, .i32⟩
  | 103 => ⟨S176x256x256, .i1⟩
  | 104 => ⟨S_, .i32⟩
  | 105 => ⟨S176x256x256, .i32⟩
  | 106 => ⟨S176x256x256, .i32⟩
  | 107 => ⟨S176x256x256, .i32⟩
  | 108 => ⟨S176x256x256, .i32⟩
  | 109 => ⟨S176x256x256x1, .i32⟩
  | 110 => ⟨S176x256x256x1, .i32⟩
  | 111 => ⟨S176x256x256x1, .i32⟩
  | 112 => ⟨S176x256x256x3, .i32⟩
  | 113 => ⟨S176x256x256x3, .f32⟩
  | 114 => ⟨S176x256x256x1, .i1⟩
  | 115 => ⟨S_, .f32⟩
  | 116 => ⟨S_, .f32⟩
  | 117 => ⟨S176x256x256x3, .i1⟩
  | 118 => ⟨S176x256x256x3, .f32⟩
  | 119 => ⟨S176x256x256x3, .f32⟩
  | 120 => ⟨S176x256x256x1, .f32⟩
  | 121 => ⟨S176x256x256x3, .f32⟩
  | 122 => ⟨S176x256x256x3, .f32⟩
  | 123 => ⟨S176x256x256x1, .f32⟩
  | 124 => ⟨S176x256x256x3, .f32⟩
  | 125 => ⟨S176x256x256x3, .f32⟩
  | 126 => ⟨S176x256x256x3, .f32⟩
  | 127 => ⟨S176x256x256x1, .f32⟩
  | _ => ⟨S1x256x256x3, .f32⟩

abbrev hbmTy0_2 (i : Nat) : BufTy := match i % 128 with
  | 0 => ⟨S176x256x256x3, .f32⟩
  | 1 => ⟨S176x256x256x3, .f32⟩
  | 2 => ⟨S176x256x256x3, .f32⟩
  | 3 => ⟨S176x256x256x1, .f32⟩
  | 4 => ⟨S176x256x256x3, .f32⟩
  | 5 => ⟨S176x256x256x3, .f32⟩
  | 6 => ⟨S176x256x256x3, .f32⟩
  | 7 => ⟨S16x11x256x256x3, .f32⟩
  | _ => ⟨S1x256x256x3, .f32⟩

abbrev hbmTy (i : Nat) : BufTy := match i / 128 with
  | 0 => hbmTy0_0 i
  | 1 => hbmTy0_1 i
  | 2 => hbmTy0_2 i
  | _ => ⟨S1x256x256x3, .f32⟩

abbrev bufTy : (tb : Table) → Fin (tcTables nBuf tb) → BufTy
  | .hbm, ⟨i, _⟩ => hbmTy i
  | _, _ => ⟨S1x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_12 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_14 : Ref sig .tc := ⟨.hbm, 71, rfl⟩
abbrev main_v53 : Ref sig .tc := ⟨.hbm, 72, rfl⟩
abbrev main_v54 : Ref sig .tc := ⟨.hbm, 73, rfl⟩
abbrev main_c_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_call0_v0 : Ref sig .tc := ⟨.hbm, 82, rfl⟩
abbrev main_call0_v1 : Ref sig .tc := ⟨.hbm, 83, rfl⟩
abbrev main_v61 : Ref sig .tc := ⟨.hbm, 84, rfl⟩
abbrev main_c_17 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_c_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_20 : Ref sig .tc := ⟨.hbm, 96, rfl⟩
abbrev main_v68 : Ref sig .tc := ⟨.hbm, 97, rfl⟩
abbrev main_v69 : Ref sig .tc := ⟨.hbm, 98, rfl⟩
abbrev main_c_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_22 : Ref sig .tc := ⟨.hbm, 103, rfl⟩
abbrev main_v73 : Ref sig .tc := ⟨.hbm, 104, rfl⟩
abbrev main_v74 : Ref sig .tc := ⟨.hbm, 105, rfl⟩
abbrev main_c_23 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_24 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v85 : Ref sig .tc := ⟨.hbm, 121, rfl⟩
abbrev main_v86 : Ref sig .tc := ⟨.hbm, 122, rfl⟩
abbrev main_c_25 : Ref sig .tc := ⟨.hbm, 123, rfl⟩
abbrev main_call3_v0 : Ref sig .tc := ⟨.hbm, 124, rfl⟩
abbrev main_call3_v1 : Ref sig .tc := ⟨.hbm, 125, rfl⟩
abbrev main_v87 : Ref sig .tc := ⟨.hbm, 126, rfl⟩
abbrev main_c_26 : Ref sig .tc := ⟨.hbm, 127, rfl⟩
abbrev main_call4_v0 : Ref sig .tc := ⟨.hbm, 128, rfl⟩
abbrev main_call4_v1 : Ref sig .tc := ⟨.hbm, 129, rfl⟩
abbrev main_v88 : Ref sig .tc := ⟨.hbm, 130, rfl⟩
abbrev main_c_27 : Ref sig .tc := ⟨.hbm, 131, rfl⟩
abbrev main_v89 : Ref sig .tc := ⟨.hbm, 132, rfl⟩
abbrev main_v90 : Ref sig .tc := ⟨.hbm, 133, rfl⟩
abbrev main_c_28 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_29 : Ref sig .tc := ⟨.hbm, 138, rfl⟩
abbrev main_v94 : Ref sig .tc := ⟨.hbm, 139, rfl⟩
abbrev main_v95 : Ref sig .tc := ⟨.hbm, 140, rfl⟩
abbrev main_c_30 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_31 : Ref sig .tc := ⟨.hbm, 145, rfl⟩
abbrev main_v99 : Ref sig .tc := ⟨.hbm, 146, rfl⟩
abbrev main_v100 : Ref sig .tc := ⟨.hbm, 147, rfl⟩
abbrev main_c_32 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_33 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v111 : Ref sig .tc := ⟨.hbm, 163, rfl⟩
abbrev main_v112 : Ref sig .tc := ⟨.hbm, 164, rfl⟩
abbrev main_c_34 : Ref sig .tc := ⟨.hbm, 165, rfl⟩
abbrev main_call6_v0 : Ref sig .tc := ⟨.hbm, 166, rfl⟩
abbrev main_call6_v1 : Ref sig .tc := ⟨.hbm, 167, rfl⟩
abbrev main_v113 : Ref sig .tc := ⟨.hbm, 168, rfl⟩
abbrev main_c_35 : Ref sig .tc := ⟨.hbm, 169, rfl⟩
abbrev main_call7_v0 : Ref sig .tc := ⟨.hbm, 170, rfl⟩
abbrev main_call7_v1 : Ref sig .tc := ⟨.hbm, 171, rfl⟩
abbrev main_v114 : Ref sig .tc := ⟨.hbm, 172, rfl⟩
abbrev main_c_36 : Ref sig .tc := ⟨.hbm, 173, rfl⟩
abbrev main_v115 : Ref sig .tc := ⟨.hbm, 174, rfl⟩
abbrev main_v116 : Ref sig .tc := ⟨.hbm, 175, rfl⟩
abbrev main_c_37 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_c_38 : Ref sig .tc := ⟨.hbm, 180, rfl⟩
abbrev main_v120 : Ref sig .tc := ⟨.hbm, 181, rfl⟩
abbrev main_v121 : Ref sig .tc := ⟨.hbm, 182, rfl⟩
abbrev main_c_39 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_c_40 : Ref sig .tc := ⟨.hbm, 187, rfl⟩
abbrev main_v125 : Ref sig .tc := ⟨.hbm, 188, rfl⟩
abbrev main_v126 : Ref sig .tc := ⟨.hbm, 189, rfl⟩
abbrev main_c_41 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_42 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_v137 : Ref sig .tc := ⟨.hbm, 205, rfl⟩
abbrev main_v138 : Ref sig .tc := ⟨.hbm, 206, rfl⟩
abbrev main_c_43 : Ref sig .tc := ⟨.hbm, 207, rfl⟩
abbrev main_call9_v0 : Ref sig .tc := ⟨.hbm, 208, rfl⟩
abbrev main_call9_v1 : Ref sig .tc := ⟨.hbm, 209, rfl⟩
abbrev main_v139 : Ref sig .tc := ⟨.hbm, 210, rfl⟩
abbrev main_c_44 : Ref sig .tc := ⟨.hbm, 211, rfl⟩
abbrev main_call10_v0 : Ref sig .tc := ⟨.hbm, 212, rfl⟩
abbrev main_call10_v1 : Ref sig .tc := ⟨.hbm, 213, rfl⟩
abbrev main_v140 : Ref sig .tc := ⟨.hbm, 214, rfl⟩
abbrev main_c_45 : Ref sig .tc := ⟨.hbm, 215, rfl⟩
abbrev main_v141 : Ref sig .tc := ⟨.hbm, 216, rfl⟩
abbrev main_v142 : Ref sig .tc := ⟨.hbm, 217, rfl⟩
abbrev main_c_46 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_c_47 : Ref sig .tc := ⟨.hbm, 222, rfl⟩
abbrev main_v146 : Ref sig .tc := ⟨.hbm, 223, rfl⟩
abbrev main_v147 : Ref sig .tc := ⟨.hbm, 224, rfl⟩
abbrev main_c_48 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_c_49 : Ref sig .tc := ⟨.hbm, 229, rfl⟩
abbrev main_v151 : Ref sig .tc := ⟨.hbm, 230, rfl⟩
abbrev main_v152 : Ref sig .tc := ⟨.hbm, 231, rfl⟩
abbrev main_c_50 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_51 : Ref sig .tc := ⟨.hbm, 243, rfl⟩
abbrev main_call11_v0 : Ref sig .tc := ⟨.hbm, 244, rfl⟩
abbrev main_call11_v1 : Ref sig .tc := ⟨.hbm, 245, rfl⟩
abbrev main_call11_v2 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩

abbrev nD : Nat := 1
abbrev τ : Topo := Topo.v7x

variable {F : FTy → Type} [FloatOps F]

class Facts₀ : Prop where
  bcast_S1x256x256x3_S1x1x256x256x3_0_2_3_4 : S1x256x256x3.BroadcastsInDim S1x1x256x256x3 (![0, 2, 3, 4] : Fin 4 → Fin S1x1x256x256x3.rank)
  bcast_S1x1x256x256x3_S16x11x256x256x3_0_1_2_3_4 : S1x1x256x256x3.BroadcastsInDim S16x11x256x256x3 (![0, 1, 2, 3, 4] : Fin 5 → Fin S16x11x256x256x3.rank)
  shapeCasts_S16x11x256x256x3_S176x256x256x3 : S16x11x256x256x3.ShapeCasts S176x256x256x3
  shapeCasts_S16x11x256x256x2_S176x256x256x2 : S16x11x256x256x2.ShapeCasts S176x256x256x2
  slices_S176x256x256x2_S176x256x256x1_0_0_0_0 : S176x256x256x2.Slices ![0, 0, 0, 0] S176x256x256x1
  shapeCasts_S176x256x256x1_S176x256x256 : S176x256x256x1.ShapeCasts S176x256x256
  bcast_S_S176x256x256 : S_.BroadcastsInDim S176x256x256 (![] : Fin 0 → Fin S176x256x256.rank)
  slices_S176x256x256x2_S176x256x256x1_0_0_0_1 : S176x256x256x2.Slices ![0, 0, 0, 1] S176x256x256x1
  bcast_S176_S176x1x1_0 : S176.BroadcastsInDim S176x1x1 (![0] : Fin 1 → Fin S176x1x1.rank)
  bcast_S_S176x1x1 : S_.BroadcastsInDim S176x1x1 (![] : Fin 0 → Fin S176x1x1.rank)
  bcast_S176x1x1_S176x256x256_0_1_2 : S176x1x1.BroadcastsInDim S176x256x256 (![0, 1, 2] : Fin 3 → Fin S176x256x256.rank)
  bcast_S176x256x256_S176x256x256x1_0_1_2 : S176x256x256.BroadcastsInDim S176x256x256x1 (![0, 1, 2] : Fin 3 → Fin S176x256x256x1.rank)
  concatenates_S176x256x256x1_S176x256x256x1_S176x256x256x1_S176x256x256x3_d3 : Shape.Concatenates [S176x256x256x1, S176x256x256x1, S176x256x256x1] S176x256x256x3 3
  bcast_S176x256x256x1_S176x256x256x3_0_1_2_3 : S176x256x256x1.BroadcastsInDim S176x256x256x3 (![0, 1, 2, 3] : Fin 4 → Fin S176x256x256x3.rank)
  bcast_S_S176x256x256x3 : S_.BroadcastsInDim S176x256x256x3 (![] : Fin 0 → Fin S176x256x256x3.rank)
  shapeCasts_S176x256x256x3_S16x11x256x256x3 : S176x256x256x3.ShapeCasts S16x11x256x256x3
  gather_S176x256x256x3_S176x256x256x3_S176x256x256x3_3_012_n_n_012_3_1113_wf : GatherDims.WF S176x256x256x3 S176x256x256x3 S176x256x256x3 [3] [0, 1, 2] [] [0, 1, 2] [] 3 ![1, 1, 1, 3]

variable [Facts₀]

def gather_S176x256x256x3_S176x256x256x3_S176x256x256x3_3_012_n_n_012_3_1113 : GatherDims S176x256x256x3 S176x256x256x3 S176x256x256x3 where
  offsetDims := [3]
  collapsedSliceDims := [0, 1, 2]
  operandBatchingDims := []
  startIndicesBatchingDims := []
  startIndexMap := [0, 1, 2]
  indexVectorDim := 3
  sliceSizes := ![1, 1, 1, 3]
  wf := gather_S176x256x256x3_S176x256x256x3_S176x256x256x3_3_012_n_n_012_3_1113_wf

class Facts : Prop extends Facts₀ where

variable [Facts]
-- ==== Proof.KernelIdealAround.lean ====
import proofs.«166879_j29085518528593_2_alg».proof.Proof.Gen.KernelIdeal.Launch
import proofs.«166879_j29085518528593_2_alg».proof.Proof.Gen.KernelIdeal.Skeleton
import proofs.«166879_j29085518528593_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The run of the blend program around its one region

The entry function is: a long stretch of host operations (the sample coordinates, the four bilinear weights, the four
masked corner gathers, and the two stacked operands), ONE region on a grid of 88 points, then two host operations (a
transpose and a reshape of the region's result). At grid point `t` the region stages block `t` of the stacked weights
`[4, 2, 256, 256]` and of the stacked corners `[12, 2, 256, 256]` (images `2t` and `2t + 1`), and the body stores into
the whole output block `[3, 2, 256, 256]` one value: the blend of the two staged blocks. The body also loads the output
buffer before storing into it, and uses nothing of what it loaded.

This module states what the body leaves in the output block as a function of the two input blocks, proves the body's
triple, supplies the proof data of the region (the arrays as the region finds them; each input block in place; the
output block at the blend of the input blocks), and concludes: every weakly fair execution terminates without a fault,
the region's output array ends at what the points wrote back, and the two argument arrays end as they started — no host
operation writes them and the region only reads blocks of arrays the host operations computed.
Everything is stated for any float instance `F`.
-/

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in program order. -/
abbrev before : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20, hostOps0_21, hostOps0_22, hostOps0_23, hostOps0_24]

/-- What core `c`'s buffers hold when the region is entered: the host operations before it, run from the initial
    memory. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

/-- Every host operation before the region touches TensorCore references only. -/
theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
   hostOps0_7_sub, hostOps0_8_sub, hostOps0_9_sub, hostOps0_10_sub, hostOps0_11_sub, hostOps0_12_sub, hostOps0_13_sub,
   hostOps0_14_sub, hostOps0_15_sub, hostOps0_16_sub, hostOps0_17_sub, hostOps0_18_sub, hostOps0_19_sub, hostOps0_20_sub,
   hostOps0_21_sub, hostOps0_22_sub, hostOps0_23_sub, hostOps0_24_sub⟩

/-- None of them allocates a buffer. -/
theorem before_fresh : (before (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- The entry function is the host operations before the region, the region, and the two host operations after it: it
    reduces to the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1] before_sub before_fresh main_chain

/-- The operations after the region touch the region's arrays and buffers that bypass it only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And they write none of the region's three arrays: each writes its own result buffer. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The argument arrays are written by no host operation -/

/-- No host operation before the region writes the image argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the sample-coordinates argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The two operations after the region do not write the image argument, and it is no array of the region: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same for the sample-coordinates argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights window's current staging buffer holds its block at every point, for any proof data whose array is the
    region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the corners window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a run to the frame claim's post -/

/-- For any proof data whose arrays are the region-entry contents, a run to the library's frame post — which has every
    unscoped buffer that is no array of the region as the operations after the region leave it — has both argument
    arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## What the body leaves in the output block -/

/-- The whole weights block, the whole corners block, the whole output block: the three rectangles the body accesses. -/
abbrev rW : Rect S4x2x256x256 := Rect.unit (s := S4x2x256x256) ![0, 0, 0, 0] S4x2x256x256.size inb_S4x2x256x256_S4x2x256x256_0_0_0_0
abbrev rC : Rect S12x2x256x256 := Rect.unit (s := S12x2x256x256) ![0, 0, 0, 0] S12x2x256x256.size inb_S12x2x256x256_S12x2x256x256_0_0_0_0
abbrev rO : Rect S3x2x256x256 := Rect.unit (s := S3x2x256x256) ![0, 0, 0, 0] S3x2x256x256.size inb_S3x2x256x256_S3x2x256x256_0_0_0_0

/-- The output block after the body, from the two input blocks: its one store, of the blend of what the two loads read. -/
def outBlock (x0 : Vec F S4x2x256x256 .f32) (x1 : Vec F S12x2x256x256 .f32) : Vec F S3x2x256x256 .f32 :=
  View.canon [⟨rO, k0_pay1 (View.ld x0 rW) (View.ld x1 rC)⟩]

/-- The one store covers the whole block. -/
theorem outCover (p0 : Vec F S3x2x256x256 .f32) (y : S3x2x256x256.Idx) :
    ∃ pc ∈ ([⟨rO, p0⟩] : List (View.Piece (Elt F) S3x2x256x256 .f32)), y ∈ pc.1.set :=
  View.cover_of_tiled [⟨rO, p0⟩] S3x2x256x256.size (by rfl) y

/-! ## The body's triple -/

set_option maxHeartbeats 1000000 in
/-- The body on whole staging memrefs — the two inputs' at contents `x0`, `x1`, the output's at anything — runs to the
    continuation holding the inputs' as they were and the output's at `outBlock x0 x1`: two loads, a load of the output
    buffer whose value is dropped, one store. -/
theorem sound_kernel (c : Dev nD) (E : Set ℕ) (i : grid0.Coords)
    (arg1 : Memref sig .tc .vmem S4x2x256x256 .f32) (harg1 : arg1.IsWhole)
    (arg2 : Memref sig .tc .vmem S12x2x256x256 .f32) (harg2 : arg2.IsWhole)
    (arg3 : Memref sig .tc .vmem S3x2x256x256 .f32) (harg3 : arg3.IsWhole)
    (x0 : Vec F S4x2x256x256 .f32) (x1 : Vec F S12x2x256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__blend_kernel i arg1 harg1 arg2 harg2 arg3 harg3) K := by
  simp only [cc0__blend_kernel_eq_skeleton]; unfold cc0__blend_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- The proof data of the region on core `c`: the arrays as the region finds them; after the body at point `t` each
    input's buffer at its block and the output's at the blend of the two input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, and every final
    state has each array of the region at what the points wrote back and every other unscoped buffer as the two
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Around

end
-- ==== Proof.KernelBlend.lean ====
import proofs.«166879_j29085518528593_2_alg».proof.Proof.Gen.KernelIdeal.Skeleton
import Idealize.ShloMosaic.Lib.ValueIdx
import Idealize.ShloMosaic.Lib.ValueLayout
import Idealize.ShloMosaic.Lib.Pipeline.Value

/-!
# The blend of four weighted corner values, read at an entry

The kernel's arithmetic takes a block of four weight planes `[4,2,256,256]` and a block of twelve corner planes
`[12,2,256,256]` (four corners, three channels each) and forms, channel by channel,
`((w₀·p₀ + w₁·p₁) + w₂·p₂) + w₃·p₃`. This file reads that arithmetic, and the layout operations around it, at one
entry; everything is over the extended reals.
-/

noncomputable section

namespace Cert.KernelBlend

open Idealize.ShloMosaic Idealize.ShloMosaic.TcCoe Idealize.ShloMosaic.ValueIdx Idealize.SL.Sem
open Cert.KernelIdeal Cert.KernelIdeal.Gen

section Planes
variable {α : Type}

/-- Weight plane `i` of a `[4,2,256,256]` block — cut out as `[1,2,256,256]`, viewed `[2,256,256]`, viewed back
`[1,2,256,256]` and repeated over the three channels — is, at `(c,j,h,w)`, the block at `(i,j,h,w)`. -/
theorem weightPlane_apply (x0 : S4x2x256x256.Idx → α) (off : Fin S4x2x256x256.rank → Nat)
    (hs : S4x2x256x256.ShapeCasts S4x2x256x256) (hsl : S4x2x256x256.Slices off S1x2x256x256)
    (h1 : S1x2x256x256.ShapeCasts S2x256x256) (h2 : S2x256x256.ShapeCasts S1x2x256x256)
    (hb : S1x2x256x256.Broadcasts S3x2x256x256)
    (i : Fin 4) (e0 : off 0 = i.val) (e1 : off 1 = 0) (e2 : off 2 = 0) (e3 : off 3 = 0)
    (c : Fin 3) (j : Fin 2) (h w : Fin 256) :
    broadcastTo S3x2x256x256 (shapeCast S1x2x256x256 (shapeCast S2x256x256
      (extractStridedSlice S1x2x256x256 off (shapeCast S4x2x256x256 x0 hs) hsl) h1) h2) hb (ix4 c j h w)
      = x0 (ix4 i j h w) := by
  rw [shapeCast_shapeCast, shapeCast_self]
  refine (broadcastTo_apply _ hb (ix4 c j h w) (ix4 (0 : Fin 1) j h w) fun a => ?_).trans ?_
  · match a with
    | ⟨0, _⟩ => rfl
    | ⟨1, _⟩ => rfl
    | ⟨2, _⟩ => rfl
    | ⟨3, _⟩ => rfl
  · refine extractStridedSlice_apply off x0 hsl _ _ fun a => ?_
    match a with
    | ⟨0, _⟩ => show i.val = off 0 + 0; omega
    | ⟨1, _⟩ => show j.val = off 1 + j.val; omega
    | ⟨2, _⟩ => show h.val = off 2 + h.val; omega
    | ⟨3, _⟩ => show w.val = off 3 + w.val; omega

/-- Corner planes `o, o+1, o+2` of a `[12,2,256,256]` block, cut out as `[3,2,256,256]`: at `(c,j,h,w)` the block at
`(o + c, j, h, w)`. -/
theorem cornerPlanes_apply (x2 : S12x2x256x256.Idx → α) (off : Fin S12x2x256x256.rank → Nat)
    (hs : S12x2x256x256.ShapeCasts S12x2x256x256) (hsl : S12x2x256x256.Slices off S3x2x256x256)
    (c : Fin 3) (j : Fin 2) (h w : Fin 256)
    (q : Fin 12) (e0 : q.val = off 0 + c.val) (e1 : off 1 = 0) (e2 : off 2 = 0) (e3 : off 3 = 0) :
    extractStridedSlice S3x2x256x256 off (shapeCast S12x2x256x256 x2 hs) hsl (ix4 c j h w) = x2 (ix4 q j h w) := by
  rw [shapeCast_self]
  refine extractStridedSlice_apply off x2 hsl _ _ fun a => ?_
  match a with
  | ⟨0, _⟩ => exact e0
  | ⟨1, _⟩ => show j.val = off 1 + j.val; omega
  | ⟨2, _⟩ => show h.val = off 2 + h.val; omega
  | ⟨3, _⟩ => show w.val = off 3 + w.val; omega

end Planes

/-- **The kernel's arithmetic at an entry.** Channel `c` of image `j` at pixel `(h,w)` is the four weights at that
image and pixel against corner planes `c`, `3+c`, `6+c`, `9+c`, summed from the left. -/
theorem k0_pay1_apply (x0 : Vec Ideal S4x2x256x256 .f32) (x2 : Vec Ideal S12x2x256x256 .f32)
    (c : Fin 3) (j : Fin 2) (h w : Fin 256) (q0 q1 q2 q3 : Fin 12)
    (e0 : q0.val = c.val) (e1 : q1.val = 3 + c.val) (e2 : q2.val = 6 + c.val) (e3 : q3.val = 9 + c.val) :
    k0_pay1 (F := Ideal) x0 x2 (ix4 c j h w)
      = ((x0 (ix4 0 j h w) * x2 (ix4 q0 j h w) + x0 (ix4 1 j h w) * x2 (ix4 q1 j h w))
          + x0 (ix4 2 j h w) * x2 (ix4 q2 j h w)) + x0 (ix4 3 j h w) * x2 (ix4 q3 j h w) := by
  unfold k0_pay1
  refine congrArg₂ (· + ·) (congrArg₂ (· + ·) (congrArg₂ (· + ·) (congrArg₂ (· * ·) ?_ ?_) (congrArg₂ (· * ·) ?_ ?_))
    (congrArg₂ (· * ·) ?_ ?_)) (congrArg₂ (· * ·) ?_ ?_)
  · exact weightPlane_apply x0 ![0, 0, 0, 0] _ _ _ _ _ 0 rfl rfl rfl rfl c j h w
  · exact cornerPlanes_apply x2 ![0, 0, 0, 0] _ _ c j h w q0 (e0.trans (Nat.zero_add _).symm) rfl rfl rfl
  · exact weightPlane_apply x0 ![1, 0, 0, 0] _ _ _ _ _ 1 rfl rfl rfl rfl c j h w
  · exact cornerPlanes_apply x2 ![3, 0, 0, 0] _ _ c j h w q1 e1 rfl rfl rfl
  · exact weightPlane_apply x0 ![2, 0, 0, 0] _ _ _ _ _ 2 rfl rfl rfl rfl c j h w
  · exact cornerPlanes_apply x2 ![6, 0, 0, 0] _ _ c j h w q2 e2 rfl rfl rfl
  · exact weightPlane_apply x0 ![3, 0, 0, 0] _ _ _ _ _ 3 rfl rfl rfl rfl c j h w
  · exact cornerPlanes_apply x2 ![9, 0, 0, 0] _ _ c j h w q3 e3 rfl rfl rfl

/-! ## The plane of a corner and a channel

The twelve corner planes are ordered corner-major: corner `i` (north-west, north-east, south-west, south-east), channel
`c`, is plane `3·i + c`. -/

/-- Plane `3·i + c` of the twelve: corner `i`, channel `c`. -/
def plane (i : Fin 4) (c : Fin 3) : Fin 12 := ⟨3 * i.val + c.val, by omega⟩

theorem plane_val (i : Fin 4) (c : Fin 3) : (plane i c).val = 3 * i.val + c.val := rfl

/-- The kernel's arithmetic at an entry, with the corner planes named by corner and channel. -/
theorem k0_pay1_apply_plane (x0 : Vec Ideal S4x2x256x256 .f32) (x2 : Vec Ideal S12x2x256x256 .f32)
    (c : Fin 3) (j : Fin 2) (h w : Fin 256) :
    k0_pay1 (F := Ideal) x0 x2 (ix4 c j h w)
      = ((x0 (ix4 0 j h w) * x2 (ix4 (plane 0 c) j h w) + x0 (ix4 1 j h w) * x2 (ix4 (plane 1 c) j h w))
          + x0 (ix4 2 j h w) * x2 (ix4 (plane 2 c) j h w)) + x0 (ix4 3 j h w) * x2 (ix4 (plane 3 c) j h w) :=
  k0_pay1_apply x0 x2 c j h w _ _ _ _ (by show 3 * 0 + c.val = c.val; omega) (by show 3 * 1 + c.val = 3 + c.val; omega)
    (by show 3 * 2 + c.val = 6 + c.val; omega) (by show 3 * 3 + c.val = 9 + c.val; omega)

/-! ## The blend of whole arrays -/

/-- The blend of a stack of four weight arrays `[4,176,256,256]` against a stack of twelve corner planes
`[12,176,256,256]`: channel `c` of image `n` at pixel `(h,w)` is `((w₀·p₀ + w₁·p₁) + w₂·p₂) + w₃·p₃` with `wᵢ` weight
`i` at that image and pixel and `pᵢ` plane `3·i + c` there. -/
def blend (Wt : S4x176x256x256.Idx → EReal) (Cn : S12x176x256x256.Idx → EReal) : S3x176x256x256.Idx → EReal :=
  fun y =>
    ((Wt (ix4 0 (y 1) (y 2) (y 3)) * Cn (ix4 (plane 0 (y 0)) (y 1) (y 2) (y 3))
        + Wt (ix4 1 (y 1) (y 2) (y 3)) * Cn (ix4 (plane 1 (y 0)) (y 1) (y 2) (y 3)))
      + Wt (ix4 2 (y 1) (y 2) (y 3)) * Cn (ix4 (plane 2 (y 0)) (y 1) (y 2) (y 3)))
    + Wt (ix4 3 (y 1) (y 2) (y 3)) * Cn (ix4 (plane 3 (y 0)) (y 1) (y 2) (y 3))

theorem blend_apply (Wt : S4x176x256x256.Idx → EReal) (Cn : S12x176x256x256.Idx → EReal)
    (c : Fin 3) (n : Fin 176) (h w : Fin 256) :
    blend Wt Cn (ix4 c n h w)
      = ((Wt (ix4 0 n h w) * Cn (ix4 (plane 0 c) n h w) + Wt (ix4 1 n h w) * Cn (ix4 (plane 1 c) n h w))
          + Wt (ix4 2 n h w) * Cn (ix4 (plane 2 c) n h w)) + Wt (ix4 3 n h w) * Cn (ix4 (plane 3 c) n h w) := rfl

/-- A pair of blocks that agree with the two arrays along image `n` — row `j` of the blocks is image `n` of the
arrays — gives, through the kernel's arithmetic, the blend of the arrays at image `n`. -/
theorem k0_pay1_eq_blend (Wt : S4x176x256x256.Idx → EReal) (Cn : S12x176x256x256.Idx → EReal)
    (x0 : Vec Ideal S4x2x256x256 .f32) (x2 : Vec Ideal S12x2x256x256 .f32)
    (c : Fin 3) (j : Fin 2) (h w : Fin 256) (n : Fin 176)
    (hx0 : ∀ i : Fin 4, x0 (ix4 i j h w) = Wt (ix4 i n h w))
    (hx2 : ∀ q : Fin 12, x2 (ix4 q j h w) = Cn (ix4 q n h w)) :
    k0_pay1 (F := Ideal) x0 x2 (ix4 c j h w) = blend Wt Cn (ix4 c n h w) := by
  rw [k0_pay1_apply_plane, blend_apply, hx0 0, hx0 1, hx0 2, hx0 3, hx2 (plane 0 c), hx2 (plane 1 c), hx2 (plane 2 c),
    hx2 (plane 3 c)]

/-! ## The stacked operands -/

section Stack
variable {α : Type}

/-- An array `[176,256,256]` given a leading unit axis reads, at `(0,n,h,w)`, the array at `(n,h,w)`. -/
theorem leadUnit_apply (W : S176x256x256.Idx → α) (u : Fin 1) (n : Fin 176) (h w : Fin 256) :
    broadcastInDim S1x176x256x256 ![1, 2, 3] bcast_S176x256x256_S1x176x256x256_1_2_3 W (ix4 u n h w) = W (ix3 n h w) :=
  broadcastInDim_apply _ _ W _ _ fun a => match a with | ⟨0, _⟩ => rfl | ⟨1, _⟩ => rfl | ⟨2, _⟩ => rfl

/-- An array `[176,256,256,3]` with the channel axis moved to the front reads, at `(c,n,h,w)`, the array at
`(n,h,w,c)`. -/
theorem channelsFirst_apply (C : S176x256x256x3.Idx → α) (c : Fin 3) (n : Fin 176) (h w : Fin 256) :
    transpose S3x176x256x256 [3, 0, 1, 2] C transposes_S176x256x256x3_S3x176x256x256_3_0_1_2 (ix4 c n h w)
      = C (ix4 n h w c) :=
  transpose_apply _ C _ _ _ fun b => match b with | ⟨0, _⟩ => rfl | ⟨1, _⟩ => rfl | ⟨2, _⟩ => rfl | ⟨3, _⟩ => rfl

/-- The four weight arrays, each given a leading unit axis. -/
abbrev weightPieces (W0 W1 W2 W3 : S176x256x256.Idx → α) : List ((s : Shape) × (s.Idx → α)) :=
  [⟨S1x176x256x256, broadcastInDim S1x176x256x256 ![1, 2, 3] bcast_S176x256x256_S1x176x256x256_1_2_3 W0⟩,
   ⟨S1x176x256x256, broadcastInDim S1x176x256x256 ![1, 2, 3] bcast_S176x256x256_S1x176x256x256_1_2_3 W1⟩,
   ⟨S1x176x256x256, broadcastInDim S1x176x256x256 ![1, 2, 3] bcast_S176x256x256_S1x176x256x256_1_2_3 W2⟩,
   ⟨S1x176x256x256, broadcastInDim S1x176x256x256 ![1, 2, 3] bcast_S176x256x256_S1x176x256x256_1_2_3 W3⟩]

/-- The four weight arrays, each given a leading unit axis, laid end to end along that axis. -/
def stackWeights (W0 W1 W2 W3 : S176x256x256.Idx → α) : S4x176x256x256.Idx → α :=
  concatenate S4x176x256x256 0 (weightPieces W0 W1 W2 W3)
    concatenates_S1x176x256x256_S1x176x256x256_S1x176x256x256_S1x176x256x256_S4x176x256x256_d0

/-- The four corner arrays, each with its channel axis moved to the front. -/
abbrev cornerPieces (C0 C1 C2 C3 : S176x256x256x3.Idx → α) : List ((s : Shape) × (s.Idx → α)) :=
  [⟨S3x176x256x256, transpose S3x176x256x256 [3, 0, 1, 2] C0 transposes_S176x256x256x3_S3x176x256x256_3_0_1_2⟩,
   ⟨S3x176x256x256, transpose S3x176x256x256 [3, 0, 1, 2] C1 transposes_S176x256x256x3_S3x176x256x256_3_0_1_2⟩,
   ⟨S3x176x256x256, transpose S3x176x256x256 [3, 0, 1, 2] C2 transposes_S176x256x256x3_S3x176x256x256_3_0_1_2⟩,
   ⟨S3x176x256x256, transpose S3x176x256x256 [3, 0, 1, 2] C3 transposes_S176x256x256x3_S3x176x256x256_3_0_1_2⟩]

/-- The four corner arrays, each with its channel axis moved to the front, laid end to end along that axis. -/
def stackCorners (C0 C1 C2 C3 : S176x256x256x3.Idx → α) : S12x176x256x256.Idx → α :=
  concatenate S12x176x256x256 0 (cornerPieces C0 C1 C2 C3)
    concatenates_S3x176x256x256_S3x176x256x256_S3x176x256x256_S3x176x256x256_S12x176x256x256_d0

variable (W0 W1 W2 W3 : S176x256x256.Idx → α) (C0 C1 C2 C3 : S176x256x256x3.Idx → α)
variable (n : Fin 176) (h w : Fin 256)

/-- Weight `0` of the stack is the first array. -/
theorem stackWeights_apply0 : stackWeights W0 W1 W2 W3 (ix4 0 n h w) = W0 (ix3 n h w) :=
  Eq.trans
    (concatenate_apply_piece (t := S4x176x256x256) 0 (weightPieces W0 W1 W2 W3)
      concatenates_S1x176x256x256_S1x176x256x256_S1x176x256x256_S1x176x256x256_S4x176x256x256_d0
      (ix4 0 n h w) 0 (by show 0 < 4; omega) S1x176x256x256 _ rfl rfl 0 rfl (ix4 (0 : Fin 1) n h w)
      (fun b hb => match b with
        | ⟨0, _⟩ => absurd rfl hb
        | ⟨1, _⟩ => rfl
        | ⟨2, _⟩ => rfl
        | ⟨3, _⟩ => rfl)
      rfl)
    (leadUnit_apply W0 0 n h w)

/-- Weight `1` of the stack is the second array. -/
theorem stackWeights_apply1 : stackWeights W0 W1 W2 W3 (ix4 1 n h w) = W1 (ix3 n h w) :=
  Eq.trans
    (concatenate_apply_piece (t := S4x176x256x256) 0 (weightPieces W0 W1 W2 W3)
      concatenates_S1x176x256x256_S1x176x256x256_S1x176x256x256_S1x176x256x256_S4x176x256x256_d0
      (ix4 1 n h w) 1 (by show 1 < 4; omega) S1x176x256x256 _ rfl rfl 1 rfl (ix4 (0 : Fin 1) n h w)
      (fun b hb => match b with
        | ⟨0, _⟩ => absurd rfl hb
        | ⟨1, _⟩ => rfl
        | ⟨2, _⟩ => rfl
        | ⟨3, _⟩ => rfl)
      rfl)
    (leadUnit_apply W1 0 n h w)

/-- Weight `2` of the stack is the third array. -/
theorem stackWeights_apply2 : stackWeights W0 W1 W2 W3 (ix4 2 n h w) = W2 (ix3 n h w) :=
  Eq.trans
    (concatenate_apply_piece (t := S4x176x256x256) 0 (weightPieces W0 W1 W2 W3)
      concatenates_S1x176x256x256_S1x176x256x256_S1x176x256x256_S1x176x256x256_S4x176x256x256_d0
      (ix4 2 n h w) 2 (by show 2 < 4; omega) S1x176x256x256 _ rfl rfl 2 rfl (ix4 (0 : Fin 1) n h w)
      (fun b hb => match b with
        | ⟨0, _⟩ => absurd rfl hb
        | ⟨1, _⟩ => rfl
        | ⟨2, _⟩ => rfl
        | ⟨3, _⟩ => rfl)
      rfl)
    (leadUnit_apply W2 0 n h w)

/-- Weight `3` of the stack is the fourth array. -/
theorem stackWeights_apply3 : stackWeights W0 W1 W2 W3 (ix4 3 n h w) = W3 (ix3 n h w) :=
  Eq.trans
    (concatenate_apply_piece (t := S4x176x256x256) 0 (weightPieces W0 W1 W2 W3)
      concatenates_S1x176x256x256_S1x176x256x256_S1x176x256x256_S1x176x256x256_S4x176x256x256_d0
      (ix4 3 n h w) 3 (by show 3 < 4; omega) S1x176x256x256 _ rfl rfl 3 rfl (ix4 (0 : Fin 1) n h w)
      (fun b hb => match b with
        | ⟨0, _⟩ => absurd rfl hb
        | ⟨1, _⟩ => rfl
        | ⟨2, _⟩ => rfl
        | ⟨3, _⟩ => rfl)
      rfl)
    (leadUnit_apply W3 0 n h w)

/-- Plane `3·0 + c` of the stack is channel `c` of the first corner array. -/
theorem stackCorners_apply0 (c : Fin 3) :
    stackCorners C0 C1 C2 C3 (ix4 (plane 0 c) n h w) = C0 (ix4 n h w c) :=
  Eq.trans
    (concatenate_apply_piece (t := S12x176x256x256) 0 (cornerPieces C0 C1 C2 C3)
      concatenates_S3x176x256x256_S3x176x256x256_S3x176x256x256_S3x176x256x256_S12x176x256x256_d0
      (ix4 (plane 0 c) n h w) 0 (by show 0 < 4; omega) S3x176x256x256 _ rfl rfl 0 rfl (ix4 c n h w)
      (fun b hb => match b with
        | ⟨0, _⟩ => absurd rfl hb
        | ⟨1, _⟩ => rfl
        | ⟨2, _⟩ => rfl
        | ⟨3, _⟩ => rfl)
      rfl)
    (channelsFirst_apply C0 c n h w)

/-- Plane `3·1 + c` of the stack is channel `c` of the second corner array. -/
theorem stackCorners_apply1 (c : Fin 3) :
    stackCorners C0 C1 C2 C3 (ix4 (plane 1 c) n h w) = C1 (ix4 n h w c) :=
  Eq.trans
    (concatenate_apply_piece (t := S12x176x256x256) 0 (cornerPieces C0 C1 C2 C3)
      concatenates_S3x176x256x256_S3x176x256x256_S3x176x256x256_S3x176x256x256_S12x176x256x256_d0
      (ix4 (plane 1 c) n h w) 1 (by show 1 < 4; omega) S3x176x256x256 _ rfl rfl 3 rfl (ix4 c n h w)
      (fun b hb => match b with
        | ⟨0, _⟩ => absurd rfl hb
        | ⟨1, _⟩ => rfl
        | ⟨2, _⟩ => rfl
        | ⟨3, _⟩ => rfl)
      rfl)
    (channelsFirst_apply C1 c n h w)

/-- Plane `3·2 + c` of the stack is channel `c` of the third corner array. -/
theorem stackCorners_apply2 (c : Fin 3) :
    stackCorners C0 C1 C2 C3 (ix4 (plane 2 c) n h w) = C2 (ix4 n h w c) :=
  Eq.trans
    (concatenate_apply_piece (t := S12x176x256x256) 0 (cornerPieces C0 C1 C2 C3)
      concatenates_S3x176x256x256_S3x176x256x256_S3x176x256x256_S3x176x256x256_S12x176x256x256_d0
      (ix4 (plane 2 c) n h w) 2 (by show 2 < 4; omega) S3x176x256x256 _ rfl rfl 6 rfl (ix4 c n h w)
      (fun b hb => match b with
        | ⟨0, _⟩ => absurd rfl hb
        | ⟨1, _⟩ => rfl
        | ⟨2, _⟩ => rfl
        | ⟨3, _⟩ => rfl)
      rfl)
    (channelsFirst_apply C2 c n h w)

/-- Plane `3·3 + c` of the stack is channel `c` of the fourth corner array. -/
theorem stackCorners_apply3 (c : Fin 3) :
    stackCorners C0 C1 C2 C3 (ix4 (plane 3 c) n h w) = C3 (ix4 n h w c) :=
  Eq.trans
    (concatenate_apply_piece (t := S12x176x256x256) 0 (cornerPieces C0 C1 C2 C3)
      concatenates_S3x176x256x256_S3x176x256x256_S3x176x256x256_S3x176x256x256_S12x176x256x256_d0
      (ix4 (plane 3 c) n h w) 3 (by show 3 < 4; omega) S3x176x256x256 _ rfl rfl 9 rfl (ix4 c n h w)
      (fun b hb => match b with
        | ⟨0, _⟩ => absurd rfl hb
        | ⟨1, _⟩ => rfl
        | ⟨2, _⟩ => rfl
        | ⟨3, _⟩ => rfl)
      rfl)
    (channelsFirst_apply C3 c n h w)

end Stack

/-! ## The host's lines after the call -/

section Unstack
variable {α : Type}

/-- An array `[3,176,256,256]` with the channel axis moved back to the end reads, at `(n,h,w,c)`, the array at
`(c,n,h,w)`. -/
theorem channelsLast_apply (O : S3x176x256x256.Idx → α) (n : Fin 176) (h w : Fin 256) (c : Fin 3) :
    transpose S176x256x256x3 [1, 2, 3, 0] O transposes_S3x176x256x256_S176x256x256x3_1_2_3_0 (ix4 n h w c)
      = O (ix4 c n h w) :=
  transpose_apply _ O _ _ _ fun b => match b with | ⟨0, _⟩ => rfl | ⟨1, _⟩ => rfl | ⟨2, _⟩ => rfl | ⟨3, _⟩ => rfl

/-- The channel axis moved back to the end, and the 176 images regrouped as 16 batches of 11. -/
def unstack (O : S3x176x256x256.Idx → α) : S16x11x256x256x3.Idx → α :=
  shapeCast S16x11x256x256x3
    (transpose S176x256x256x3 [1, 2, 3, 0] O transposes_S3x176x256x256_S176x256x256x3_1_2_3_0)
    shapeCasts_S176x256x256x3_S16x11x256x256x3

/-- Image `k` of batch `b` is image `n = 11·b + k` of the 176: the two arrays have the same row-major order. -/
theorem unstack_apply (O : S3x176x256x256.Idx → α) (b : Fin 16) (k : Fin 11) (h w : Fin 256) (c : Fin 3) (n : Fin 176)
    (hn : n.val = 11 * b.val + k.val) : unstack O (ix5 b k h w c) = O (ix4 c n h w) :=
  Eq.trans
    (shapeCast_apply _ shapeCasts_S176x256x256x3_S16x11x256x256x3 (ix5 b k h w c) (ix4 n h w c) (by
      rw [Shape.rowMajor_val_four, Shape.rowMajor_val_five]
      show ((n.val * 256 + h.val) * 256 + w.val) * 3 + c.val
        = (((b.val * 11 + k.val) * 256 + h.val) * 256 + w.val) * 3 + c.val
      rw [hn]; omega))
    (channelsLast_apply O n h w c)

end Unstack

/-- **The kernel's result at an entry**: the blend of the stacked weights against the stacked corners, unstacked, is
at `(b,k,h,w,c)` the four weights of image `n = 11·b + k` at pixel `(h,w)` against the four corners' channel `c` there,
summed from the left. -/
theorem unstack_blend_apply (W0 W1 W2 W3 : S176x256x256.Idx → EReal) (C0 C1 C2 C3 : S176x256x256x3.Idx → EReal)
    (b : Fin 16) (k : Fin 11) (h w : Fin 256) (c : Fin 3) (n : Fin 176) (hn : n.val = 11 * b.val + k.val) :
    unstack (blend (stackWeights W0 W1 W2 W3) (stackCorners C0 C1 C2 C3)) (ix5 b k h w c)
      = ((W0 (ix3 n h w) * C0 (ix4 n h w c) + W1 (ix3 n h w) * C1 (ix4 n h w c))
          + W2 (ix3 n h w) * C2 (ix4 n h w c)) + W3 (ix3 n h w) * C3 (ix4 n h w c) := by
  rw [unstack_apply _ b k h w c n hn, blend_apply, stackWeights_apply0, stackWeights_apply1, stackWeights_apply2,
    stackWeights_apply3, stackCorners_apply0, stackCorners_apply1, stackCorners_apply2, stackCorners_apply3]

end Cert.KernelBlend

end
-- ==== Proof.BlendArray.lean ====
import proofs.«166879_j29085518528593_2_alg».proof.Proof.KernelIdealAround
import proofs.«166879_j29085518528593_2_alg».proof.Proof.KernelBlend
import Idealize.ShloMosaic.Lib.Pipeline.Value
import Idealize.ShloMosaic.Lib.ValueIdx

/-!
# The region's output array is the blend of its two operand arrays

Grid point `t` of the region (88 points) stages images `2t` and `2t + 1` of the stacked weights `[4, 176, 256, 256]`
and of the stacked corner planes `[12, 176, 256, 256]`, and writes back images `2t`, `2t + 1` of the output
`[3, 176, 256, 256]`: on every other axis the block is the whole axis. Entry `(c, j, h, w)` of the block at point `t`
sits in its array at `(c, 2t + j, h, w)`. So what point `t` writes back is block `t` of the blend of the two arrays, the
88 blocks tile the 176 images, and the output array ends as the blend of the two operand arrays as the region found them.
-/

set_option maxRecDepth 16384

noncomputable section

namespace Cert.KernelValue

open Cert.KernelIdeal Cert.KernelIdeal.Gen Cert.KernelIdeal.Around Cert.KernelBlend
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zeros4 : (![0, 0, 0, 0] : Fin 4 → Nat) = fun _ => 0 := funext fun a => by fin_cases a <;> rfl

/-- The three index maps, decided over the grid: every window is at block `t` along the images and at block 0 on the
    other three axes. -/
theorem index_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0
    ∧ win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)

/-- The stacked weights and the stacked corner planes as the region finds them. -/
abbrev Wt (c : Dev nD) : S4x176x256x256.Idx → EReal := V m c main_v141
abbrev Cn (c : Dev nD) : S12x176x256x256.Idx → EReal := V m c main_v136

/-- What point `t` writes back is block `t` of the blend of the two operand arrays. -/
theorem flushed_eq (c : Dev nD) (t : Fin cfg0.N) :
    (dats m 0 c).flushed 2 t = ((cfg0.win 2).blk t).view.read (Elt Ideal) (blend (Wt m c) (Cn m c)) := by
  show (cfg0.win 2).cut (grid0.coords t) ((dats m 0 c).after 2 t) = _
  rw [after2]
  unfold outBlock
  rw [View.canon_unit_zero zeros4]
  simp only [View.ld_unit_zero (S := S4x2x256x256) zeros4, View.ld_unit_zero (S := S12x2x256x256) zeros4]
  obtain ⟨a0, a1, a2, a3, b0, b1, b2, b3, o0, o1, o2, o3⟩ := index_facts t
  have ht : t.val < 88 := t.isLt
  funext j
  obtain ⟨cc, jj, h, w, rfl⟩ : ∃ (cc : Fin 3) (jj : Fin 2) (h w : Fin 256), j = ix4 cc jj h w := ⟨j 0, j 1, j 2, j 3, eq_ix4 j⟩
  have hjj : jj.val < 2 := jj.isLt
  have eo : ((cfg0.win 2).blk t).view.emb (ix4 cc jj h w) = (ix4 cc ⟨2 * t.val + jj.val, by omega⟩ h w : S3x176x256x256.Idx) := by
    funext a; apply Fin.ext
    match a with
    | ⟨0, _⟩ => show win0_2.index t (0 : Fin 4) * 3 + 1 * cc.val = cc.val; omega
    | ⟨1, _⟩ => show win0_2.index t (1 : Fin 4) * 2 + 1 * jj.val = 2 * t.val + jj.val; omega
    | ⟨2, _⟩ => show win0_2.index t (2 : Fin 4) * 256 + 1 * h.val = h.val; omega
    | ⟨3, _⟩ => show win0_2.index t (3 : Fin 4) * 256 + 1 * w.val = w.val; omega
  show k0_pay1 (F := Ideal) (iblk m c 0 t) (iblk m c 1 t) (ix4 cc jj h w) = blend (Wt m c) (Cn m c) (((cfg0.win 2).blk t).view.emb (ix4 cc jj h w))
  rw [eo]
  refine k0_pay1_eq_blend (Wt m c) (Cn m c) (iblk m c 0 t) (iblk m c 1 t) cc jj h w ⟨2 * t.val + jj.val, by omega⟩ ?_ ?_
  · intro i
    show V m c main_v141 (((cfg0.win 0).blk t).view.emb (ix4 i jj h w)) = V m c main_v141 (ix4 i ⟨2 * t.val + jj.val, by omega⟩ h w)
    refine congrArg _ ?_
    funext a; apply Fin.ext
    match a with
    | ⟨0, _⟩ => show win0_0.index t (0 : Fin 4) * 4 + 1 * i.val = i.val; omega
    | ⟨1, _⟩ => show win0_0.index t (1 : Fin 4) * 2 + 1 * jj.val = 2 * t.val + jj.val; omega
    | ⟨2, _⟩ => show win0_0.index t (2 : Fin 4) * 256 + 1 * h.val = h.val; omega
    | ⟨3, _⟩ => show win0_0.index t (3 : Fin 4) * 256 + 1 * w.val = w.val; omega
  · intro q
    show V m c main_v136 (((cfg0.win 1).blk t).view.emb (ix4 q jj h w)) = V m c main_v136 (ix4 q ⟨2 * t.val + jj.val, by omega⟩ h w)
    refine congrArg _ ?_
    funext a; apply Fin.ext
    match a with
    | ⟨0, _⟩ => show win0_1.index t (0 : Fin 4) * 12 + 1 * q.val = q.val; omega
    | ⟨1, _⟩ => show win0_1.index t (1 : Fin 4) * 2 + 1 * jj.val = 2 * t.val + jj.val; omega
    | ⟨2, _⟩ => show win0_1.index t (2 : Fin 4) * 256 + 1 * h.val = h.val; omega
    | ⟨3, _⟩ => show win0_1.index t (3 : Fin 4) * 256 + 1 * w.val = w.val; omega

/-- An index of the output array is in point `t`'s block iff each coordinate is in the block's range on its axis. -/
theorem mem_blk (t : Fin cfg0.N) (i : S3x176x256x256.Idx) :
    i ∈ ((cfg0.win 2).blk t).view.set ↔ ∀ a : Fin 4, win0_2.index t a * S3x2x256x256.size a ≤ (i a).val ∧ (i a).val < win0_2.index t a * S3x2x256x256.size a + S3x2x256x256.size a := by
  show i ∈ ((View.whole main_v142).slice (win0_2.rect t)).set ↔ _
  rw [View.set_slice_whole, Rect.mem_set_unit]
  exact Iff.rfl

/-- Every index of the output array is in some point's block: image `n` is in the block of point `n / 2`. -/
theorem covered (i : S3x176x256x256.Idx) :
    ∃ t : Fin cfg0.N, (cfg0.win 2).flush t = true ∧ i ∈ ((cfg0.win 2).blk t).view.set := by
  have hi0 : (i 0).val < 3 := (i 0).isLt
  have hi1 : (i 1).val < 176 := (i 1).isLt
  have hi2 : (i 2).val < 256 := (i 2).isLt
  have hi3 : (i 3).val < 256 := (i 3).isLt
  have hlt : (i 1).val / 2 < cfg0.N := by show (i 1).val / 2 < grid0.N; rw [N_0]; omega
  refine ⟨⟨(i 1).val / 2, hlt⟩, flush0_2 _, ?_⟩
  rw [mem_blk]
  obtain ⟨-, -, -, -, -, -, -, -, o0, o1, o2, o3⟩ := index_facts ⟨(i 1).val / 2, hlt⟩
  have o1' : win0_2.index ⟨(i 1).val / 2, hlt⟩ (1 : Fin 4) = (i 1).val / 2 := o1
  intro a
  match a with
  | ⟨0, _⟩ => show win0_2.index _ (0 : Fin 4) * 3 ≤ (i 0).val ∧ (i 0).val < win0_2.index _ (0 : Fin 4) * 3 + 3; omega
  | ⟨1, _⟩ => show win0_2.index _ (1 : Fin 4) * 2 ≤ (i 1).val ∧ (i 1).val < win0_2.index _ (1 : Fin 4) * 2 + 2; omega
  | ⟨2, _⟩ => show win0_2.index _ (2 : Fin 4) * 256 ≤ (i 2).val ∧ (i 2).val < win0_2.index _ (2 : Fin 4) * 256 + 256; omega
  | ⟨3, _⟩ => show win0_2.index _ (3 : Fin 4) * 256 ≤ (i 3).val ∧ (i 3).val < win0_2.index _ (3 : Fin 4) * 256 + 256; omega

/-- The output array after the region: the blend of the two operand arrays as the region found them. -/
theorem final (c : Dev nD) : (dats m 0 c).arrAt 2 cfg0.N = blend (Wt m c) (Cn m c) :=
  (dats m 0 c).arrAt_eq_of_cover 2 (blend (Wt m c) (Cn m c)) (fun t _ => flushed_eq m c t) covered

end Cert.KernelValue

end
-- ==== Proof.KernelRun.lean ====
import proofs.«166879_j29085518528593_2_alg».proof.Proof.BlendArray
import Idealize.ShloMosaic.Lib.StableHlo.Run

/-!
# The kernel program's run, with its result named

After the region the entry function transposes the region's output `[3, 176, 256, 256]` to `[176, 256, 256, 3]` and
reshapes it to `[16, 11, 256, 256, 3]`. The region's output array ends as the blend of the stacked weights and the stacked
corner planes the host operations before the region computed, so the program's result is that blend, channels moved last
and the 176 images split into 16 × 11 — and the two argument arrays end as they started.
-/

set_option maxRecDepth 16384

noncomputable section

namespace Cert.KernelValue

open Cert.KernelIdeal Cert.KernelIdeal.Gen Cert.KernelIdeal.Around Cert.KernelBlend
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- What the two operations after the region leave in the result buffer: the region's output array — the blend —
    with channels moved last and the images split. -/
theorem tail_eq (c : Dev nD) :
    Pipeline.afterTail₀ cfgs (dats m) 0 (V0 m) [hostOps1] c main_v144 = unstack (blend (Wt m c) (Cn m c)) := by
  unfold Pipeline.afterTail₀
  show StableHlo.after hostOps1 _ (Proc.devRef .tc main_v144) = _
  after_results
  rw [show Pipeline.withArrays spec0 c (V0 m c) (fun w => (dats m 0 c).arrAt w cfg0.N) (Proc.devRef .tc main_v142)
        = blend (Wt m c) (Cn m c) from (Pipeline.withArrays_arr spec0 launch0.win.arr_inj c _ _ 2).trans (final m c)]
  rfl

/-- The kernel program at the ideal instance: every weakly fair execution terminates without a fault, the result
    buffer holds the blend of the stacked operands (channels last, images split), the arguments are unchanged. -/
theorem kernel_run : θ_run defs (onTc (τ := τ) (main (F := Ideal))) ⟨m, fun _ => 0, ρ⟩ (fun r => ∀ c : Dev nD,
      r.2.mem ((c.tc : Thread nD τ).loc main_v144) = unstack (blend (Wt m c) (Cn m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v144 (Pipeline.mem_restRefs_of main_v144 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelValue

end
-- ==== Proof.KernelAround.lean ====
import proofs.«166879_j29085518528593_2_alg».proof.Proof.Gen.Kernel.Launch
import proofs.«166879_j29085518528593_2_alg».proof.Proof.Gen.Kernel.Skeleton
import proofs.«166879_j29085518528593_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The run of the blend program around its one region

The entry function is: a long stretch of host operations (the sample coordinates, the four bilinear weights, the four
masked corner gathers, and the two stacked operands), ONE region on a grid of 88 points, then two host operations (a
transpose and a reshape of the region's result). At grid point `t` the region stages block `t` of the stacked weights
`[4, 2, 256, 256]` and of the stacked corners `[12, 2, 256, 256]` (images `2t` and `2t + 1`), and the body stores into
the whole output block `[3, 2, 256, 256]` one value: the blend of the two staged blocks. The body also loads the output
buffer before storing into it, and uses nothing of what it loaded.

This module states what the body leaves in the output block as a function of the two input blocks, proves the body's
triple, supplies the proof data of the region (the arrays as the region finds them; each input block in place; the
output block at the blend of the input blocks), and concludes: every weakly fair execution terminates without a fault,
the region's output array ends at what the points wrote back, and the two argument arrays end as they started — no host
operation writes them and the region only reads blocks of arrays the host operations computed.
Everything is stated for any float instance `F`.
-/

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in program order. -/
abbrev before : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20, hostOps0_21, hostOps0_22, hostOps0_23, hostOps0_24]

/-- What core `c`'s buffers hold when the region is entered: the host operations before it, run from the initial
    memory. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

/-- Every host operation before the region touches TensorCore references only. -/
theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
   hostOps0_7_sub, hostOps0_8_sub, hostOps0_9_sub, hostOps0_10_sub, hostOps0_11_sub, hostOps0_12_sub, hostOps0_13_sub,
   hostOps0_14_sub, hostOps0_15_sub, hostOps0_16_sub, hostOps0_17_sub, hostOps0_18_sub, hostOps0_19_sub, hostOps0_20_sub,
   hostOps0_21_sub, hostOps0_22_sub, hostOps0_23_sub, hostOps0_24_sub⟩

/-- None of them allocates a buffer. -/
theorem before_fresh : (before (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- The entry function is the host operations before the region, the region, and the two host operations after it: it
    reduces to the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1] before_sub before_fresh main_chain

/-- The operations after the region touch the region's arrays and buffers that bypass it only. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And they write none of the region's three arrays: each writes its own result buffer. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The argument arrays are written by no host operation -/

/-- No host operation before the region writes the image argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the sample-coordinates argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The two operations after the region do not write the image argument, and it is no array of the region: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same for the sample-coordinates argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights window's current staging buffer holds its block at every point, for any proof data whose array is the
    region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the corners window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a run to the frame claim's post -/

/-- For any proof data whose arrays are the region-entry contents, a run to the library's frame post — which has every
    unscoped buffer that is no array of the region as the operations after the region leave it — has both argument
    arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## What the body leaves in the output block -/

/-- The whole weights block, the whole corners block, the whole output block: the three rectangles the body accesses. -/
abbrev rW : Rect S4x2x256x256 := Rect.unit (s := S4x2x256x256) ![0, 0, 0, 0] S4x2x256x256.size inb_S4x2x256x256_S4x2x256x256_0_0_0_0
abbrev rC : Rect S12x2x256x256 := Rect.unit (s := S12x2x256x256) ![0, 0, 0, 0] S12x2x256x256.size inb_S12x2x256x256_S12x2x256x256_0_0_0_0
abbrev rO : Rect S3x2x256x256 := Rect.unit (s := S3x2x256x256) ![0, 0, 0, 0] S3x2x256x256.size inb_S3x2x256x256_S3x2x256x256_0_0_0_0

/-- The output block after the body, from the two input blocks: its one store, of the blend of what the two loads read. -/
def outBlock (x0 : Vec F S4x2x256x256 .f32) (x1 : Vec F S12x2x256x256 .f32) : Vec F S3x2x256x256 .f32 :=
  View.canon [⟨rO, k0_pay1 (View.ld x0 rW) (View.ld x1 rC)⟩]

/-- The one store covers the whole block. -/
theorem outCover (p0 : Vec F S3x2x256x256 .f32) (y : S3x2x256x256.Idx) :
    ∃ pc ∈ ([⟨rO, p0⟩] : List (View.Piece (Elt F) S3x2x256x256 .f32)), y ∈ pc.1.set :=
  View.cover_of_tiled [⟨rO, p0⟩] S3x2x256x256.size (by rfl) y

/-! ## The body's triple -/

set_option maxHeartbeats 1000000 in
/-- The body on whole staging memrefs — the two inputs' at contents `x0`, `x1`, the output's at anything — runs to the
    continuation holding the inputs' as they were and the output's at `outBlock x0 x1`: two loads, a load of the output
    buffer whose value is dropped, one store. -/
theorem sound_kernel (c : Dev nD) (E : Set ℕ) (i : grid0.Coords)
    (arg1 : Memref sig .tc .vmem S4x2x256x256 .f32) (harg1 : arg1.IsWhole)
    (arg2 : Memref sig .tc .vmem S12x2x256x256 .f32) (harg2 : arg2.IsWhole)
    (arg3 : Memref sig .tc .vmem S3x2x256x256 .f32) (harg3 : arg3.IsWhole)
    (x0 : Vec F S4x2x256x256 .f32) (x1 : Vec F S12x2x256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__blend_kernel i arg1 harg1 arg2 harg2 arg3 harg3) K := by
  simp only [cc0__blend_kernel_eq_skeleton]; unfold cc0__blend_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- The proof data of the region on core `c`: the arrays as the region finds them; after the body at point `t` each
    input's buffer at its block and the output's at the blend of the two input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, and every final
    state has each array of the region at what the points wrote back and every other unscoped buffer as the two
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Around

end
-- ==== Proof.RefValue.lean ====
/-
  The reference program's result, read entry by entry.

  The reference samples one 256 x 256 x 3 image bilinearly at 176 x 256 x 256 points. With n = 11 b + k the entry
  (b, k, h, w, c) of its result is

      w_nw(n,h,w) * NW(n,h,w,c) + w_sw(n,h,w) * SW(n,h,w,c) + w_ne(n,h,w) * NE(n,h,w,c) + w_se(n,h,w) * SE(n,h,w,c),

  summed from the left, where the four weights are arrays over (n, h, w) and the four corner arrays over (n, h, w, c)
  are the image gathered at the corner's (row, column) and set to zero where the corner falls outside the image.
  The program forms each product after broadcasting the weight along the channel axis, adds the four products and
  reshapes [176, 256, 256, 3] to [16, 11, 256, 256, 3]; the reshape keeps the row-major position, which is where
  n = 11 b + k comes from.

  This module states (1) that entry formula, stopping at the weight and corner arrays, (2) each corner array as
  select (mask) (gather) (zeros) with the gather's operands spelt out, and (3) the reference's run with its result
  named, and the frame claim of the reference.
-/
import proofs.«166879_j29085518528593_2_alg».proof.Defs
import proofs.«166879_j29085518528593_2_alg».proof.Proof.Gen.ReferenceIdeal.Read
import Idealize.ShloMosaic.Lib.ValueIdx
import Idealize.ShloMosaic.PureOps.Ideal

noncomputable section

open Idealize.ShloMosaic Idealize.ShloMosaic.TcCoe Idealize.ShloMosaic.ValueIdx Idealize.SL.Sem Idealize.ShloMosaic.StableHlo

namespace Cert.RefValue

open Cert.ReferenceIdeal Cert.ReferenceIdeal.Gen

variable [Cert.ReferenceIdeal.Facts]

/-! ## The index maps -/

/-- The reshape [176, 256, 256, 3] -> [16, 11, 256, 256, 3] keeps the row-major position: the entry (b, k, h, w, c)
    of the result is the entry (11 b + k, h, w, c) of the operand. -/
theorem idx_result (b : Fin 16) (k : Fin 11) (h w : Fin 256) (c : Fin 3) (n : Fin 176)
    (hn : n.val = 11 * b.val + k.val) :
    Read.idx_main_v179 (ix5 b k h w c) = ix4 n h w c := by
  have hb := b.isLt; have hk := k.isLt; have hh := h.isLt; have hw := w.isLt; have hc := c.isLt
  funext a
  apply Fin.ext
  match a with
  | ⟨0, _⟩ => show ((((b.val * 11 + k.val) * 256 + h.val) * 256 + w.val) * 3 + c.val) / 196608 = n.val; omega
  | ⟨1, _⟩ => show ((((b.val * 11 + k.val) * 256 + h.val) * 256 + w.val) * 3 + c.val) / 768 % 256 = h.val; omega
  | ⟨2, _⟩ => show ((((b.val * 11 + k.val) * 256 + h.val) * 256 + w.val) * 3 + c.val) / 3 % 256 = w.val; omega
  | ⟨3, _⟩ => show ((((b.val * 11 + k.val) * 256 + h.val) * 256 + w.val) * 3 + c.val) % 3 = c.val; omega

/-- A weight broadcast along the channel axis is read at (n, h, w), whatever the channel: the north-west weight, first in the sum. -/
theorem idx_weight_nw (n : Fin 176) (h w : Fin 256) (c : Fin 3) :
    Read.idx_main_v164 (Read.idx_main_v165 (ix4 n h w c)) = ix3 n h w := by
  funext a; match a with | ⟨0, _⟩ => rfl | ⟨1, _⟩ => rfl | ⟨2, _⟩ => rfl

/-- The same for the south-west weight, second in the sum. -/
theorem idx_weight_sw (n : Fin 176) (h w : Fin 256) (c : Fin 3) :
    Read.idx_main_v167 (Read.idx_main_v168 (ix4 n h w c)) = ix3 n h w := by
  funext a; match a with | ⟨0, _⟩ => rfl | ⟨1, _⟩ => rfl | ⟨2, _⟩ => rfl

/-- The same for the north-east weight, third in the sum. -/
theorem idx_weight_ne (n : Fin 176) (h w : Fin 256) (c : Fin 3) :
    Read.idx_main_v171 (Read.idx_main_v172 (ix4 n h w c)) = ix3 n h w := by
  funext a; match a with | ⟨0, _⟩ => rfl | ⟨1, _⟩ => rfl | ⟨2, _⟩ => rfl

/-- The same for the south-east weight, fourth in the sum. -/
theorem idx_weight_se (n : Fin 176) (h w : Fin 256) (c : Fin 3) :
    Read.idx_main_v175 (Read.idx_main_v176 (ix4 n h w c)) = ix3 n h w := by
  funext a; match a with | ⟨0, _⟩ => rfl | ⟨1, _⟩ => rfl | ⟨2, _⟩ => rfl

/-! ## The result at an entry -/

/-- The entry (b, k, h, w, c) of the reference's result, with n = 11 b + k: the four products weight * corner at
    (n, h, w) and (n, h, w, c), added from the left in the program's order. -/
theorem result_apply (a0 : (⟨S1x256x256x3, .f32⟩ : BufTy).Contents (Elt Ideal)) (a1 : (⟨S16x11x256x256x2, .f32⟩ : BufTy).Contents (Elt Ideal))
    (b : Fin 16) (k : Fin 11) (h w : Fin 256) (c : Fin 3) (n : Fin 176) (hn : n.val = 11 * b.val + k.val) :
    Read.val_main_v179 (F := Ideal) a0 a1 (ix5 b k h w c)
      = ((Read.val_main_v28 (F := Ideal) a1 (ix3 n h w) * Read.val_main_v85 (F := Ideal) a0 a1 (ix4 n h w c)
          + Read.val_main_v30 (F := Ideal) a1 (ix3 n h w) * Read.val_main_v137 (F := Ideal) a0 a1 (ix4 n h w c))
          + Read.val_main_v29 (F := Ideal) a1 (ix3 n h w) * Read.val_main_v111 (F := Ideal) a0 a1 (ix4 n h w c))
          + Read.val_main_v31 (F := Ideal) a1 (ix3 n h w) * Read.val_main_v163 (F := Ideal) a0 a1 (ix4 n h w c) := by
  rewrite [Read.val_main_v179_apply, idx_result b k h w c n hn, Read.val_main_v178_apply, Read.val_main_v174_apply,
    Read.val_main_v170_apply, Read.val_main_v166_apply, Read.val_main_v169_apply, Read.val_main_v173_apply,
    Read.val_main_v177_apply, Read.val_main_v165_apply, Read.val_main_v164_apply, Read.val_main_v168_apply,
    Read.val_main_v167_apply, Read.val_main_v172_apply, Read.val_main_v171_apply, Read.val_main_v176_apply,
    Read.val_main_v175_apply, idx_weight_nw, idx_weight_sw, idx_weight_ne, idx_weight_se]
  rfl

/-! ## The corner arrays, opened one level -/

/-- The north-west corner array (row floor y, column floor x) is the gathered image entry masked to zero outside the image: the select of the
    mask (broadcast along the channel axis), the gather of the image by the index triples (image number, row, column)
    joined along the last axis, and the zero array. -/
theorem corner_nw (a0 : (⟨S1x256x256x3, .f32⟩ : BufTy).Contents (Elt Ideal)) (a1 : (⟨S16x11x256x256x2, .f32⟩ : BufTy).Contents (Elt Ideal)) :
    Read.val_main_v85 (F := Ideal) a0 a1
      = select (Read.val_main_call2_v1 (F := Ideal) a1)
          (Host.gather gather_S176x256x256x3_S176x256x256x3_S176x256x256x3_3_012_n_n_012_3_1113
            (Read.val_main_v2 (F := Ideal) a0)
            (concatenate S176x256x256x3 3
              [⟨S176x256x256x1, (Read.val_main_v79 (F := Ideal))⟩, ⟨S176x256x256x1, (Read.val_main_v80 (F := Ideal) a1)⟩,
               ⟨S176x256x256x1, (Read.val_main_v81 (F := Ideal) a1)⟩]
              concatenates_S176x256x256x1_S176x256x256x1_S176x256x256x1_S176x256x256x3_d3))
          (Read.val_main_call2_v2 (F := Ideal)) := rfl

/-- The same with the gather replaced by any array equal to it. -/
theorem corner_nw_of (a0 : (⟨S1x256x256x3, .f32⟩ : BufTy).Contents (Elt Ideal)) (a1 : (⟨S16x11x256x256x2, .f32⟩ : BufTy).Contents (Elt Ideal))
    (g : (⟨S176x256x256x3, .f32⟩ : BufTy).Contents (Elt Ideal))
    (hg : Host.gather gather_S176x256x256x3_S176x256x256x3_S176x256x256x3_3_012_n_n_012_3_1113
            (Read.val_main_v2 (F := Ideal) a0)
            (concatenate S176x256x256x3 3
              [⟨S176x256x256x1, (Read.val_main_v79 (F := Ideal))⟩, ⟨S176x256x256x1, (Read.val_main_v80 (F := Ideal) a1)⟩,
               ⟨S176x256x256x1, (Read.val_main_v81 (F := Ideal) a1)⟩]
              concatenates_S176x256x256x1_S176x256x256x1_S176x256x256x1_S176x256x256x3_d3) = g) :
    Read.val_main_v85 (F := Ideal) a0 a1
      = select (Read.val_main_call2_v1 (F := Ideal) a1) g (Read.val_main_call2_v2 (F := Ideal)) :=
  (corner_nw a0 a1).trans (congrArg (fun t => select (Read.val_main_call2_v1 (F := Ideal) a1) t (Read.val_main_call2_v2 (F := Ideal))) hg)

/-- The north-east corner array (row floor y, column floor x + 1) is the gathered image entry masked to zero outside the image: the select of the
    mask (broadcast along the channel axis), the gather of the image by the index triples (image number, row, column)
    joined along the last axis, and the zero array. -/
theorem corner_ne (a0 : (⟨S1x256x256x3, .f32⟩ : BufTy).Contents (Elt Ideal)) (a1 : (⟨S16x11x256x256x2, .f32⟩ : BufTy).Contents (Elt Ideal)) :
    Read.val_main_v111 (F := Ideal) a0 a1
      = select (Read.val_main_call5_v1 (F := Ideal) a1)
          (Host.gather gather_S176x256x256x3_S176x256x256x3_S176x256x256x3_3_012_n_n_012_3_1113
            (Read.val_main_v2 (F := Ideal) a0)
            (concatenate S176x256x256x3 3
              [⟨S176x256x256x1, (Read.val_main_v105 (F := Ideal))⟩, ⟨S176x256x256x1, (Read.val_main_v106 (F := Ideal) a1)⟩,
               ⟨S176x256x256x1, (Read.val_main_v107 (F := Ideal) a1)⟩]
              concatenates_S176x256x256x1_S176x256x256x1_S176x256x256x1_S176x256x256x3_d3))
          (Read.val_main_call5_v2 (F := Ideal)) := rfl

/-- The same with the gather replaced by any array equal to it. -/
theorem corner_ne_of (a0 : (⟨S1x256x256x3, .f32⟩ : BufTy).Contents (Elt Ideal)) (a1 : (⟨S16x11x256x256x2, .f32⟩ : BufTy).Contents (Elt Ideal))
    (g : (⟨S176x256x256x3, .f32⟩ : BufTy).Contents (Elt Ideal))
    (hg : Host.gather gather_S176x256x256x3_S176x256x256x3_S176x256x256x3_3_012_n_n_012_3_1113
            (Read.val_main_v2 (F := Ideal) a0)
            (concatenate S176x256x256x3 3
              [⟨S176x256x256x1, (Read.val_main_v105 (F := Ideal))⟩, ⟨S176x256x256x1, (Read.val_main_v106 (F := Ideal) a1)⟩,
               ⟨S176x256x256x1, (Read.val_main_v107 (F := Ideal) a1)⟩]
              concatenates_S176x256x256x1_S176x256x256x1_S176x256x256x1_S176x256x256x3_d3) = g) :
    Read.val_main_v111 (F := Ideal) a0 a1
      = select (Read.val_main_call5_v1 (F := Ideal) a1) g (Read.val_main_call5_v2 (F := Ideal)) :=
  (corner_ne a0 a1).trans (congrArg (fun t => select (Read.val_main_call5_v1 (F := Ideal) a1) t (Read.val_main_call5_v2 (F := Ideal))) hg)

/-- The south-west corner array (row floor y + 1, column floor x) is the gathered image entry masked to zero outside the image: the select of the
    mask (broadcast along the channel axis), the gather of the image by the index triples (image number, row, column)
    joined along the last axis, and the zero array. -/
theorem corner_sw (a0 : (⟨S1x256x256x3, .f32⟩ : BufTy).Contents (Elt Ideal)) (a1 : (⟨S16x11x256x256x2, .f32⟩ : BufTy).Contents (Elt Ideal)) :
    Read.val_main_v137 (F := Ideal) a0 a1
      = select (Read.val_main_call8_v1 (F := Ideal) a1)
          (Host.gather gather_S176x256x256x3_S176x256x256x3_S176x256x256x3_3_012_n_n_012_3_1113
            (Read.val_main_v2 (F := Ideal) a0)
            (concatenate S176x256x256x3 3
              [⟨S176x256x256x1, (Read.val_main_v131 (F := Ideal))⟩, ⟨S176x256x256x1, (Read.val_main_v132 (F := Ideal) a1)⟩,
               ⟨S176x256x256x1, (Read.val_main_v133 (F := Ideal) a1)⟩]
              concatenates_S176x256x256x1_S176x256x256x1_S176x256x256x1_S176x256x256x3_d3))
          (Read.val_main_call8_v2 (F := Ideal)) := rfl

/-- The same with the gather replaced by any array equal to it. -/
theorem corner_sw_of (a0 : (⟨S1x256x256x3, .f32⟩ : BufTy).Contents (Elt Ideal)) (a1 : (⟨S16x11x256x256x2, .f32⟩ : BufTy).Contents (Elt Ideal))
    (g : (⟨S176x256x256x3, .f32⟩ : BufTy).Contents (Elt Ideal))
    (hg : Host.gather gather_S176x256x256x3_S176x256x256x3_S176x256x256x3_3_012_n_n_012_3_1113
            (Read.val_main_v2 (F := Ideal) a0)
            (concatenate S176x256x256x3 3
              [⟨S176x256x256x1, (Read.val_main_v131 (F := Ideal))⟩, ⟨S176x256x256x1, (Read.val_main_v132 (F := Ideal) a1)⟩,
               ⟨S176x256x256x1, (Read.val_main_v133 (F := Ideal) a1)⟩]
              concatenates_S176x256x256x1_S176x256x256x1_S176x256x256x1_S176x256x256x3_d3) = g) :
    Read.val_main_v137 (F := Ideal) a0 a1
      = select (Read.val_main_call8_v1 (F := Ideal) a1) g (Read.val_main_call8_v2 (F := Ideal)) :=
  (corner_sw a0 a1).trans (congrArg (fun t => select (Read.val_main_call8_v1 (F := Ideal) a1) t (Read.val_main_call8_v2 (F := Ideal))) hg)

/-- The south-east corner array (row floor y + 1, column floor x + 1) is the gathered image entry masked to zero outside the image: the select of the
    mask (broadcast along the channel axis), the gather of the image by the index triples (image number, row, column)
    joined along the last axis, and the zero array. -/
theorem corner_se (a0 : (⟨S1x256x256x3, .f32⟩ : BufTy).Contents (Elt Ideal)) (a1 : (⟨S16x11x256x256x2, .f32⟩ : BufTy).Contents (Elt Ideal)) :
    Read.val_main_v163 (F := Ideal) a0 a1
      = select (Read.val_main_call11_v1 (F := Ideal) a1)
          (Host.gather gather_S176x256x256x3_S176x256x256x3_S176x256x256x3_3_012_n_n_012_3_1113
            (Read.val_main_v2 (F := Ideal) a0)
            (concatenate S176x256x256x3 3
              [⟨S176x256x256x1, (Read.val_main_v157 (F := Ideal))⟩, ⟨S176x256x256x1, (Read.val_main_v158 (F := Ideal) a1)⟩,
               ⟨S176x256x256x1, (Read.val_main_v159 (F := Ideal) a1)⟩]
              concatenates_S176x256x256x1_S176x256x256x1_S176x256x256x1_S176x256x256x3_d3))
          (Read.val_main_call11_v2 (F := Ideal)) := rfl

/-- The same with the gather replaced by any array equal to it. -/
theorem corner_se_of (a0 : (⟨S1x256x256x3, .f32⟩ : BufTy).Contents (Elt Ideal)) (a1 : (⟨S16x11x256x256x2, .f32⟩ : BufTy).Contents (Elt Ideal))
    (g : (⟨S176x256x256x3, .f32⟩ : BufTy).Contents (Elt Ideal))
    (hg : Host.gather gather_S176x256x256x3_S176x256x256x3_S176x256x256x3_3_012_n_n_012_3_1113
            (Read.val_main_v2 (F := Ideal) a0)
            (concatenate S176x256x256x3 3
              [⟨S176x256x256x1, (Read.val_main_v157 (F := Ideal))⟩, ⟨S176x256x256x1, (Read.val_main_v158 (F := Ideal) a1)⟩,
               ⟨S176x256x256x1, (Read.val_main_v159 (F := Ideal) a1)⟩]
              concatenates_S176x256x256x1_S176x256x256x1_S176x256x256x1_S176x256x256x3_d3) = g) :
    Read.val_main_v163 (F := Ideal) a0 a1
      = select (Read.val_main_call11_v1 (F := Ideal) a1) g (Read.val_main_call11_v2 (F := Ideal)) :=
  (corner_se a0 a1).trans (congrArg (fun t => select (Read.val_main_call11_v1 (F := Ideal) a1) t (Read.val_main_call11_v2 (F := Ideal))) hg)

/-! ## The run -/

/-- Every weakly fair execution of the reference terminates with its result array the function read above of the
    two argument arrays, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v179)
          = Read.val_main_v179 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans (Read.val_main_v179_eq (F := Ideal) m' c), (h c).2⟩)
    (Cert.ReferenceIdeal.Value.run (F := Ideal) m' ρ')

/-- The reference runs and leaves its arguments unchanged. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.LibGatherPixels.lean ====
import Idealize.ShloMosaic.Lib.ValueIdx

/-!
# A gather of single pixels' channel vectors, read at an index

`stablehlo.gather` with one offset axis (the result's last), every other operand axis collapsed and named by the start
index map, the index vector on the start indices' last axis and slice sizes one pixel: what `x[ys, xs]` lowers to for an
image `x : [H, W, C]` and a table `idx : [E0, E1, E2, 2]` of (row, column) pairs, and what `x[ns, ys, xs]` lowers to
for a stack of images `x : [N, H, W, C]` and a table `idx : [E0, E1, E2, 3]` of (image, row, column) triples.
StableHLO's operand index is, axis by axis, the clamped start plus the batching coordinate plus the offset coordinate.
Here there is no batching axis. On an axis the start index map names (collapsed, slice size one) the start is the
component of the start index for that axis — the word read as a signed integer, taken as a natural number (a negative
one is `0`) and clamped to the axis' size minus one, so that the one-entry slice fits — and the offset coordinate is
`0`. On the channel axis (not named, kept whole) the start is `0` and the offset coordinate is the result's last
coordinate. So result entry `(e0, e1, e2, c)` is the operand's channel `c` at the pixel the clamped components name:
`gather_pixels3_apply` for one image, `gather_pixels4_apply` for a stack of images.
-/

noncomputable section
open scoped BigOperators
open Idealize.ShloMosaic Idealize.ShloMosaic.ValueIdx

namespace Cert.Lib
variable {α : Type}

/-- The entry of an axis of `N` entries that a start-index word names when the slice taken there is one entry long:
    the word read as a signed integer, taken as a natural number (a negative one is `0`), clamped to `N − 1` so that
    the one-entry slice fits. -/
def clampIdx {w : Nat} (N : Nat) (hN : 0 < N) (v : BitVec w) : Fin N :=
  ⟨min v.toInt.toNat (N - 1), by omega⟩

/-- The clamped entry as a number. -/
theorem clampIdx_val {w : Nat} (N : Nat) (hN : 0 < N) (v : BitVec w) :
    (clampIdx N hN v).val = min v.toInt.toNat (N - 1) := rfl

/-- A word that, read signed, is a natural number below `N` names that entry: the clamp does nothing. -/
theorem clampIdx_of_toInt {w : Nat} (N : Nat) (hN : 0 < N) (v : BitVec w) (n : Fin N) (h : v.toInt = (n.val : Int)) :
    clampIdx N hN v = n := by
  refine Fin.ext ?_
  have hn := n.isLt
  rw [clampIdx_val, h, Int.toNat_natCast]
  omega

/-- The dimension numbers of a pixel gather from one image: operand `[H, W, C]`, start indices `[E0, E1, E2, 2]`,
    result `[E0, E1, E2, C]`. Axes 0 and 1 of the operand are collapsed and are the ones the two components of a start
    index name, in that order; axis 2 is kept whole (slice sizes `[1, 1, C]`) and becomes the result's offset axis 3; the
    result's axes 0, 1, 2 run over the start indices, whose last axis holds the index vector. The conditions `wf` are
    decided on a program's literal shapes. -/
abbrev pixelGather3 (H W C E0 E1 E2 : Nat)
    (wf : GatherDims.WF ⟨3, ![H, W, C]⟩ ⟨4, ![E0, E1, E2, 2]⟩ ⟨4, ![E0, E1, E2, C]⟩ [3] [0, 1] [] [0, 1] [] 3 ![1, 1, C]) :
    GatherDims ⟨3, ![H, W, C]⟩ ⟨4, ![E0, E1, E2, 2]⟩ ⟨4, ![E0, E1, E2, C]⟩ where
  offsetDims := [3]
  collapsedSliceDims := [0, 1]
  operandBatchingDims := []
  startIndicesBatchingDims := []
  startIndexMap := [0, 1]
  indexVectorDim := 3
  sliceSizes := ![1, 1, C]
  wf := wf

/-- THE PIXEL GATHER FROM ONE IMAGE READ AT `(e0, e1, e2, c)`: channel `c` of the image at the row
    `idx[e0, e1, e2, 0]` and the column `idx[e0, e1, e2, 1]` — each read signed, as a natural number, clamped into
    `[0, H − 1]` resp. `[0, W − 1]`. On axes 0 and 1 the operand index is the clamped start alone (no batching axis; the
    axis is collapsed, so no offset); on axis 2 it is the offset coordinate `c` alone (the start index map does not name
    the axis, so the start is `0`). -/
theorem gather_pixels3_apply {H W C E0 E1 E2 w : Nat} (hH : 0 < H) (hW : 0 < W)
    (wf : GatherDims.WF ⟨3, ![H, W, C]⟩ ⟨4, ![E0, E1, E2, 2]⟩ ⟨4, ![E0, E1, E2, C]⟩ [3] [0, 1] [] [0, 1] [] 3 ![1, 1, C])
    (x : (⟨3, ![H, W, C]⟩ : Shape).Idx → α) (idx : IVec ⟨4, ![E0, E1, E2, 2]⟩ w)
    (e0 : Fin E0) (e1 : Fin E1) (e2 : Fin E2) (c : Fin C) :
    Host.gather (pixelGather3 H W C E0 E1 E2 wf) x idx (ix4 e0 e1 e2 c)
      = x (ix3 (clampIdx H hH (idx (ix4 e0 e1 e2 (0 : Fin 2)))) (clampIdx W hW (idx (ix4 e0 e1 e2 (1 : Fin 2)))) c) := by
  unfold Host.gather
  congr 1
  funext a
  refine Fin.ext ?_
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  match a with
  | ⟨0, _⟩ =>
    show (pixelGather3 H W C E0 E1 E2 wf).start (ix4 e0 e1 e2 c) idx 0
      + (pixelGather3 H W C E0 E1 E2 wf).batchCoord (ix4 e0 e1 e2 c) 0
      + (pixelGather3 H W C E0 E1 E2 wf).offCoord (ix4 e0 e1 e2 c) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 3) ∈ (pixelGather3 H W C E0 E1 E2 wf).startIndexMap from m0)]
    have hsi : (pixelGather3 H W C E0 E1 E2 wf).siIdx (ix4 e0 e1 e2 c)
        ⟨List.idxOf (0 : Fin 3) (pixelGather3 H W C E0 E1 E2 wf).startIndexMap,
          List.idxOf_lt_length_iff.2 m0⟩ = ix4 e0 e1 e2 (0 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (pixelGather3 H W C E0 E1 E2 wf).start (ix4 e0 e1 e2 c) idx 1
      + (pixelGather3 H W C E0 E1 E2 wf).batchCoord (ix4 e0 e1 e2 c) 1
      + (pixelGather3 H W C E0 E1 E2 wf).offCoord (ix4 e0 e1 e2 c) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (pixelGather3 H W C E0 E1 E2 wf).startIndexMap from m1)]
    have hsi : (pixelGather3 H W C E0 E1 E2 wf).siIdx (ix4 e0 e1 e2 c)
        ⟨List.idxOf (1 : Fin 3) (pixelGather3 H W C E0 E1 E2 wf).startIndexMap,
          List.idxOf_lt_length_iff.2 m1⟩ = ix4 e0 e1 e2 (1 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (pixelGather3 H W C E0 E1 E2 wf).start (ix4 e0 e1 e2 c) idx 2
      + (pixelGather3 H W C E0 E1 E2 wf).batchCoord (ix4 e0 e1 e2 c) 2
      + (pixelGather3 H W C E0 E1 E2 wf).offCoord (ix4 e0 e1 e2 c) 2 = c.val
    rw [GatherDims.batchCoord_eq_zero _ _ _ List.not_mem_nil]
    unfold GatherDims.start
    rw [dif_neg (show ¬ (2 : Fin 3) ∈ (pixelGather3 H W C E0 E1 E2 wf).startIndexMap from m2)]
    unfold GatherDims.offCoord
    rw [dif_pos (show (2 : Fin 3) ∈ (pixelGather3 H W C E0 E1 E2 wf).sKept from
      (GatherDims.mem_sKept _ _).mpr ⟨m2, List.not_mem_nil⟩)]
    simp only [Nat.add_zero, Nat.zero_add]
    rfl

/-- The dimension numbers of a pixel gather from a stack of images: operand `[N, H, W, C]`, start indices
    `[E0, E1, E2, 3]`, result `[E0, E1, E2, C]`. Axes 0, 1 and 2 of the operand are collapsed and are the ones the three
    components of a start index name, in that order; axis 3 is kept whole (slice sizes `[1, 1, 1, C]`) and becomes the
    result's offset axis 3; the result's axes 0, 1, 2 run over the start indices, whose last axis holds the index
    vector. -/
abbrev pixelGather4 (N H W C E0 E1 E2 : Nat)
    (wf : GatherDims.WF ⟨4, ![N, H, W, C]⟩ ⟨4, ![E0, E1, E2, 3]⟩ ⟨4, ![E0, E1, E2, C]⟩ [3] [0, 1, 2] [] [0, 1, 2] [] 3
      ![1, 1, 1, C]) :
    GatherDims ⟨4, ![N, H, W, C]⟩ ⟨4, ![E0, E1, E2, 3]⟩ ⟨4, ![E0, E1, E2, C]⟩ where
  offsetDims := [3]
  collapsedSliceDims := [0, 1, 2]
  operandBatchingDims := []
  startIndicesBatchingDims := []
  startIndexMap := [0, 1, 2]
  indexVectorDim := 3
  sliceSizes := ![1, 1, 1, C]
  wf := wf

/-- THE PIXEL GATHER FROM A STACK OF IMAGES READ AT `(e0, e1, e2, c)`: channel `c` of the image
    `idx[e0, e1, e2, 0]` at the row `idx[e0, e1, e2, 1]` and the column `idx[e0, e1, e2, 2]` — each read signed, as a natural
    number, clamped into `[0, N − 1]`, `[0, H − 1]`, `[0, W − 1]`. Axes 0, 1, 2 as the collapsed axes of the one-image case;
    on axis 3 the start is `0` and the offset coordinate is the result's last coordinate. -/
theorem gather_pixels4_apply {N H W C E0 E1 E2 w : Nat} (hN : 0 < N) (hH : 0 < H) (hW : 0 < W)
    (wf : GatherDims.WF ⟨4, ![N, H, W, C]⟩ ⟨4, ![E0, E1, E2, 3]⟩ ⟨4, ![E0, E1, E2, C]⟩ [3] [0, 1, 2] [] [0, 1, 2] [] 3
      ![1, 1, 1, C])
    (x : (⟨4, ![N, H, W, C]⟩ : Shape).Idx → α) (idx : IVec ⟨4, ![E0, E1, E2, 3]⟩ w)
    (e0 : Fin E0) (e1 : Fin E1) (e2 : Fin E2) (c : Fin C) :
    Host.gather (pixelGather4 N H W C E0 E1 E2 wf) x idx (ix4 e0 e1 e2 c)
      = x (ix4 (clampIdx N hN (idx (ix4 e0 e1 e2 (0 : Fin 3)))) (clampIdx H hH (idx (ix4 e0 e1 e2 (1 : Fin 3))))
            (clampIdx W hW (idx (ix4 e0 e1 e2 (2 : Fin 3)))) c) := by
  unfold Host.gather
  congr 1
  funext a
  refine Fin.ext ?_
  have m0 : (0 : Fin 4) ∈ ([0, 1, 2] : List (Fin 4)) := by decide
  have m1 : (1 : Fin 4) ∈ ([0, 1, 2] : List (Fin 4)) := by decide
  have m2 : (2 : Fin 4) ∈ ([0, 1, 2] : List (Fin 4)) := by decide
  have m3 : (3 : Fin 4) ∉ ([0, 1, 2] : List (Fin 4)) := by decide
  match a with
  | ⟨0, _⟩ =>
    show (pixelGather4 N H W C E0 E1 E2 wf).start (ix4 e0 e1 e2 c) idx 0
      + (pixelGather4 N H W C E0 E1 E2 wf).batchCoord (ix4 e0 e1 e2 c) 0
      + (pixelGather4 N H W C E0 E1 E2 wf).offCoord (ix4 e0 e1 e2 c) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 4) ∈ (pixelGather4 N H W C E0 E1 E2 wf).startIndexMap from m0)]
    have hsi : (pixelGather4 N H W C E0 E1 E2 wf).siIdx (ix4 e0 e1 e2 c)
        ⟨List.idxOf (0 : Fin 4) (pixelGather4 N H W C E0 E1 E2 wf).startIndexMap,
          List.idxOf_lt_length_iff.2 m0⟩ = ix4 e0 e1 e2 (0 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (pixelGather4 N H W C E0 E1 E2 wf).start (ix4 e0 e1 e2 c) idx 1
      + (pixelGather4 N H W C E0 E1 E2 wf).batchCoord (ix4 e0 e1 e2 c) 1
      + (pixelGather4 N H W C E0 E1 E2 wf).offCoord (ix4 e0 e1 e2 c) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 4) ∈ (pixelGather4 N H W C E0 E1 E2 wf).startIndexMap from m1)]
    have hsi : (pixelGather4 N H W C E0 E1 E2 wf).siIdx (ix4 e0 e1 e2 c)
        ⟨List.idxOf (1 : Fin 4) (pixelGather4 N H W C E0 E1 E2 wf).startIndexMap,
          List.idxOf_lt_length_iff.2 m1⟩ = ix4 e0 e1 e2 (1 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (pixelGather4 N H W C E0 E1 E2 wf).start (ix4 e0 e1 e2 c) idx 2
      + (pixelGather4 N H W C E0 E1 E2 wf).batchCoord (ix4 e0 e1 e2 c) 2
      + (pixelGather4 N H W C E0 E1 E2 wf).offCoord (ix4 e0 e1 e2 c) 2 = _
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 4) ∈ (pixelGather4 N H W C E0 E1 E2 wf).startIndexMap from m2)]
    have hsi : (pixelGather4 N H W C E0 E1 E2 wf).siIdx (ix4 e0 e1 e2 c)
        ⟨List.idxOf (2 : Fin 4) (pixelGather4 N H W C E0 E1 E2 wf).startIndexMap,
          List.idxOf_lt_length_iff.2 m2⟩ = ix4 e0 e1 e2 (2 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨3, _⟩ =>
    show (pixelGather4 N H W C E0 E1 E2 wf).start (ix4 e0 e1 e2 c) idx 3
      + (pixelGather4 N H W C E0 E1 E2 wf).batchCoord (ix4 e0 e1 e2 c) 3
      + (pixelGather4 N H W C E0 E1 E2 wf).offCoord (ix4 e0 e1 e2 c) 3 = c.val
    rw [GatherDims.batchCoord_eq_zero _ _ _ List.not_mem_nil]
    unfold GatherDims.start
    rw [dif_neg (show ¬ (3 : Fin 4) ∈ (pixelGather4 N H W C E0 E1 E2 wf).startIndexMap from m3)]
    unfold GatherDims.offCoord
    rw [dif_pos (show (3 : Fin 4) ∈ (pixelGather4 N H W C E0 E1 E2 wf).sKept from
      (GatherDims.mem_sKept _ _).mpr ⟨m3, List.not_mem_nil⟩)]
    simp only [Nat.add_zero, Nat.zero_add]
    rfl

end Cert.Lib
end
-- ==== Proof.GatherBridge.lean ====
import proofs.«166879_j29085518528593_2_alg».proof.KernelIdeal
import proofs.«166879_j29085518528593_2_alg».proof.ReferenceIdeal
import proofs.«166879_j29085518528593_2_alg».proof.Proof.Gen.ReferenceIdeal.Read
import proofs.«166879_j29085518528593_2_alg».proof.Proof.LibGatherPixels

/-!
# The corner gather of the two programs

Both programs read, for every sample point `(n, h, w)` and channel `c`, the image's channel `c` at a pixel whose row and
column are the words `Y (n, h, w)` and `X (n, h, w)`, each read signed, taken as a natural number and clamped into
`[0, 255]`. The kernel gathers from the image itself, `[256, 256, 3]`, with the pairs `(Y, X)`; the reference gathers from the
image repeated `176` times, `[176, 256, 256, 3]`, with the triples `(B, Y, X)` whose first component is a batch column that
names copy `n` at `(n, h, w)`. Every copy is the image, so the two gathers are the same array.
-/

noncomputable section
open Idealize.ShloMosaic Idealize.ShloMosaic.TcCoe Idealize.ShloMosaic.ValueIdx Idealize.SL.Sem

namespace Cert.Bridge
variable [Cert.KernelIdeal.Facts] [Cert.ReferenceIdeal.Facts]

/-- The sample points' index arrays: one 32-bit word per `(n, h, w)`. -/
abbrev Words : Type := (⟨Cert.KernelIdeal.S176x256x256, .i32⟩ : BufTy).Contents (Elt Ideal)
/-- A column of words: one per `(n, h, w, 0)`. -/
abbrev Column : Type := (⟨Cert.KernelIdeal.S176x256x256x1, .i32⟩ : BufTy).Contents (Elt Ideal)
/-- The image argument, `[1, 256, 256, 3]`. -/
abbrev Image : Type := (⟨Cert.KernelIdeal.S1x256x256x3, .f32⟩ : BufTy).Contents (Elt Ideal)

/-- An index array as a column: the broadcast `[176, 256, 256] → [176, 256, 256, 1]` both programs apply. -/
abbrev kernelColumn (Y : Words) : Column :=
  broadcastInDim Cert.KernelIdeal.S176x256x256x1 ![0, 1, 2] Cert.KernelIdeal.Facts₀.bcast_S176x256x256_S176x256x256x1_0_1_2 Y

/-- The kernel's start indices: the row and column columns joined along the last axis, `[176, 256, 256, 2]`. -/
abbrev kernelIndices (Y X : Words) : (⟨Cert.KernelIdeal.S176x256x256x2, .i32⟩ : BufTy).Contents (Elt Ideal) :=
  concatenate Cert.KernelIdeal.S176x256x256x2 3
    [⟨Cert.KernelIdeal.S176x256x256x1, kernelColumn Y⟩, ⟨Cert.KernelIdeal.S176x256x256x1, kernelColumn X⟩]
    Cert.KernelIdeal.Facts₀.concatenates_S176x256x256x1_S176x256x256x1_S176x256x256x2_d3

/-- The kernel's operand: the image argument without its unit axis, `[256, 256, 3]`. -/
abbrev kernelImage (src : Image) : (⟨Cert.KernelIdeal.S256x256x3, .f32⟩ : BufTy).Contents (Elt Ideal) :=
  shapeCast Cert.KernelIdeal.S256x256x3 src Cert.KernelIdeal.Facts₀.shapeCasts_S1x256x256x3_S256x256x3

/-- A column read at `(n, h, w, 0)` is the array at `(n, h, w)`. -/
theorem kernelColumn_apply (Y : Words) (n : Fin 176) (h w : Fin 256) (z : Fin 1) :
    kernelColumn Y (ix4 n h w z) = Y (ix3 n h w) := by
  refine broadcastInDim_apply _ _ Y (ix4 n h w z) (ix3 n h w) (fun a => ?_)
  match a with
  | ⟨0, _⟩ => show n.val = if (176 : Nat) = 1 then 0 else n.val; rw [if_neg (by decide)]
  | ⟨1, _⟩ => show h.val = if (256 : Nat) = 1 then 0 else h.val; rw [if_neg (by decide)]
  | ⟨2, _⟩ => show w.val = if (256 : Nat) = 1 then 0 else w.val; rw [if_neg (by decide)]

/-- The kernel's start index at `(n, h, w)`, first component: the row word. -/
theorem kernelIndices_row (Y X : Words) (n : Fin 176) (h w : Fin 256) :
    kernelIndices Y X (ix4 n h w (0 : Fin 2)) = Y (ix3 n h w) := by
  refine (concatenate_pair_apply_left (3 : Fin 4) (kernelColumn Y) (kernelColumn X) _ (ix4 n h w (0 : Fin 2)) rfl
    (ix4 n h w (0 : Fin 1)) (fun b => ?_)).trans (kernelColumn_apply Y n h w 0)
  match b with
  | ⟨0, _⟩ => rfl
  | ⟨1, _⟩ => rfl
  | ⟨2, _⟩ => rfl
  | ⟨3, _⟩ => rfl

/-- The kernel's start index at `(n, h, w)`, second component: the column word. -/
theorem kernelIndices_col (Y X : Words) (n : Fin 176) (h w : Fin 256) :
    kernelIndices Y X (ix4 n h w (1 : Fin 2)) = X (ix3 n h w) := by
  refine (concatenate_pair_apply_right (3 : Fin 4) (kernelColumn Y) (kernelColumn X) _ (ix4 n h w (1 : Fin 2)) rfl rfl
    (ix4 n h w (0 : Fin 1)) (fun b hb => ?_) rfl).trans (kernelColumn_apply X n h w 0)
  match b with
  | ⟨0, _⟩ => rfl
  | ⟨1, _⟩ => rfl
  | ⟨2, _⟩ => rfl
  | ⟨3, _⟩ => exact absurd rfl hb

/-- The kernel's operand at `(y, x, c)` is the image argument at `(0, y, x, c)`. -/
theorem kernelImage_apply (src : Image) (y x : Fin 256) (c : Fin 3) :
    kernelImage src (ix3 y x c) = src (ix4 (0 : Fin 1) y x c) := by
  refine shapeCast_apply src _ (ix3 y x c) (ix4 (0 : Fin 1) y x c) ?_
  rewrite [Shape.rowMajor_val_four, Shape.rowMajor_val_three]
  show ((0 * 256 + y.val) * 256 + x.val) * 3 + c.val = (y.val * 256 + x.val) * 3 + c.val
  omega

/-- THE KERNEL'S GATHER READ AT `(n, h, w, c)`: the image argument's channel `c` at the clamped row and column. -/
theorem kernel_gather_apply (src : Image) (Y X : Words) (n : Fin 176) (h w : Fin 256) (c : Fin 3) :
    Host.gather Cert.KernelIdeal.gather_S256x256x3_S176x256x256x2_S176x256x256x3_3_01_n_n_01_3_113
        (kernelImage src) (kernelIndices Y X) (ix4 n h w c)
      = src (ix4 (0 : Fin 1) (Cert.Lib.clampIdx 256 (by decide) (Y (ix3 n h w)))
          (Cert.Lib.clampIdx 256 (by decide) (X (ix3 n h w))) c) := by
  refine (Cert.Lib.gather_pixels3_apply (H := 256) (W := 256) (C := 3) (E0 := 176) (E1 := 256) (E2 := 256)
    (by decide) (by decide)
    Cert.KernelIdeal.Facts₀.gather_S256x256x3_S176x256x256x2_S176x256x256x3_3_01_n_n_01_3_113_wf
    (kernelImage src) (kernelIndices Y X) n h w c).trans ?_
  rw [kernelIndices_row, kernelIndices_col]
  exact kernelImage_apply src _ _ c

/-- The three columns the reference joins: a batch column, the row column, the column column. -/
abbrev referencePieces (B : Column) (Y X : Words) : List ((s : Shape) × (s.Idx → Elt Ideal .i32)) :=
  [⟨Cert.ReferenceIdeal.S176x256x256x1, B⟩,
   ⟨Cert.ReferenceIdeal.S176x256x256x1, broadcastInDim Cert.ReferenceIdeal.S176x256x256x1 ![0, 1, 2]
      Cert.ReferenceIdeal.Facts₀.bcast_S176x256x256_S176x256x256x1_0_1_2 Y⟩,
   ⟨Cert.ReferenceIdeal.S176x256x256x1, broadcastInDim Cert.ReferenceIdeal.S176x256x256x1 ![0, 1, 2]
      Cert.ReferenceIdeal.Facts₀.bcast_S176x256x256_S176x256x256x1_0_1_2 X⟩]

/-- The reference's start indices: a batch column and the row and column columns joined along the last axis,
    `[176, 256, 256, 3]`. -/
abbrev referenceIndices (B : Column) (Y X : Words) :
    (⟨Cert.ReferenceIdeal.S176x256x256x3, .i32⟩ : BufTy).Contents (Elt Ideal) :=
  concatenate Cert.ReferenceIdeal.S176x256x256x3 3 (referencePieces B Y X)
    Cert.ReferenceIdeal.Facts₀.concatenates_S176x256x256x1_S176x256x256x1_S176x256x256x1_S176x256x256x3_d3

/-- The reference's start index at `(n, h, w)`, first component: the batch column's word. -/
theorem referenceIndices_batch (B : Column) (Y X : Words) (n : Fin 176) (h w : Fin 256) :
    referenceIndices B Y X (ix4 n h w (0 : Fin 3)) = B (ix4 n h w (0 : Fin 1)) := by
  refine concatenate_apply_piece (3 : Fin 4) (referencePieces B Y X) _ (ix4 n h w (0 : Fin 3)) 0 (show (0 : Nat) < 3 by decide)
    Cert.ReferenceIdeal.S176x256x256x1 B rfl rfl 0 rfl (ix4 n h w (0 : Fin 1)) (fun b hb => ?_) rfl
  match b with
  | ⟨0, _⟩ => rfl
  | ⟨1, _⟩ => rfl
  | ⟨2, _⟩ => rfl
  | ⟨3, _⟩ => exact absurd rfl hb

/-- The reference's start index at `(n, h, w)`, second component: the row word. -/
theorem referenceIndices_row (B : Column) (Y X : Words) (n : Fin 176) (h w : Fin 256) :
    referenceIndices B Y X (ix4 n h w (1 : Fin 3)) = Y (ix3 n h w) := by
  refine (concatenate_apply_piece (3 : Fin 4) (referencePieces B Y X) _ (ix4 n h w (1 : Fin 3)) 1 (show (1 : Nat) < 3 by decide)
    Cert.ReferenceIdeal.S176x256x256x1 _ rfl rfl 1 rfl (ix4 n h w (0 : Fin 1)) (fun b hb => ?_) rfl).trans
      (kernelColumn_apply Y n h w 0)
  match b with
  | ⟨0, _⟩ => rfl
  | ⟨1, _⟩ => rfl
  | ⟨2, _⟩ => rfl
  | ⟨3, _⟩ => exact absurd rfl hb

/-- The reference's start index at `(n, h, w)`, third component: the column word. -/
theorem referenceIndices_col (B : Column) (Y X : Words) (n : Fin 176) (h w : Fin 256) :
    referenceIndices B Y X (ix4 n h w (2 : Fin 3)) = X (ix3 n h w) := by
  refine (concatenate_apply_piece (3 : Fin 4) (referencePieces B Y X) _ (ix4 n h w (2 : Fin 3)) 2 (show (2 : Nat) < 3 by decide)
    Cert.ReferenceIdeal.S176x256x256x1 _ rfl rfl 2 rfl (ix4 n h w (0 : Fin 1)) (fun b hb => ?_) rfl).trans
      (kernelColumn_apply X n h w 0)
  match b with
  | ⟨0, _⟩ => rfl
  | ⟨1, _⟩ => rfl
  | ⟨2, _⟩ => rfl
  | ⟨3, _⟩ => exact absurd rfl hb

/-- THE REFERENCE'S GATHER READ AT `(n, h, w, c)`, from any stack of images: channel `c` of the copy the batch word names,
    at the clamped row and column. -/
theorem reference_gather_apply
    (img : (⟨Cert.ReferenceIdeal.S176x256x256x3, .f32⟩ : BufTy).Contents (Elt Ideal))
    (B : Column) (Y X : Words) (n : Fin 176) (h w : Fin 256) (c : Fin 3) :
    Host.gather Cert.ReferenceIdeal.gather_S176x256x256x3_S176x256x256x3_S176x256x256x3_3_012_n_n_012_3_1113
        img (referenceIndices B Y X) (ix4 n h w c)
      = img (ix4 (Cert.Lib.clampIdx 176 (by decide) (B (ix4 n h w (0 : Fin 1))))
          (Cert.Lib.clampIdx 256 (by decide) (Y (ix3 n h w)))
          (Cert.Lib.clampIdx 256 (by decide) (X (ix3 n h w))) c) := by
  refine (Cert.Lib.gather_pixels4_apply (N := 176) (H := 256) (W := 256) (C := 3) (E0 := 176) (E1 := 256) (E2 := 256)
    (by decide) (by decide) (by decide)
    Cert.ReferenceIdeal.Facts₀.gather_S176x256x256x3_S176x256x256x3_S176x256x256x3_3_012_n_n_012_3_1113_wf
    img (referenceIndices B Y X) n h w c).trans ?_
  rw [referenceIndices_batch, referenceIndices_row, referenceIndices_col]

/-- THE TWO GATHERS ARE ONE ARRAY, for any stack of images every copy of which is the image argument: at
    `(n, h, w, c)` both read the image argument's channel `c` at the clamped row and column, whichever copy the batch word
    names. -/
theorem corner_gather_eq_of (src : Image)
    (img : (⟨Cert.ReferenceIdeal.S176x256x256x3, .f32⟩ : BufTy).Contents (Elt Ideal))
    (himg : ∀ (m : Fin 176) (y x : Fin 256) (c : Fin 3), img (ix4 m y x c) = src (ix4 (0 : Fin 1) y x c))
    (B : Column) (Y X : Words) :
    Host.gather Cert.KernelIdeal.gather_S256x256x3_S176x256x256x2_S176x256x256x3_3_01_n_n_01_3_113
        (kernelImage src) (kernelIndices Y X)
      = Host.gather Cert.ReferenceIdeal.gather_S176x256x256x3_S176x256x256x3_S176x256x256x3_3_012_n_n_012_3_1113
        img (referenceIndices B Y X) := by
  funext j
  obtain ⟨n, h, w, c, rfl⟩ : ∃ (n : Fin 176) (h w : Fin 256) (c : Fin 3), j = ix4 n h w c :=
    ⟨j 0, j 1, j 2, j 3, eq_ix4 j⟩
  rw [kernel_gather_apply, reference_gather_apply, himg]

/-- The reference's operand — the image argument repeated over the two batch axes and reshaped to
    `[176, 256, 256, 3]` — at `(m, y, x, c)` is the image argument at `(0, y, x, c)`, whatever the copy `m`: the reshape sends
    `(m, y, x, c)` to `(m / 11, m % 11, y, x, c)` and the two broadcasts drop the first two coordinates. -/
theorem referenceImage_apply (src : Image) (m : Fin 176) (y x : Fin 256) (c : Fin 3) :
    Cert.ReferenceIdeal.Read.val_main_v2 (F := Ideal) src (ix4 m y x c) = src (ix4 (0 : Fin 1) y x c) := by
  rw [Cert.ReferenceIdeal.Read.val_main_v2_apply, Cert.ReferenceIdeal.Read.val_main_v1_apply,
    Cert.ReferenceIdeal.Read.val_main_v0_apply]
  refine congrArg src (funext fun a => Fin.ext ?_)
  have hm := m.isLt; have hy := y.isLt; have hx := x.isLt; have hc := c.isLt
  match a with
  | ⟨0, _⟩ => rfl
  | ⟨1, _⟩ => show (((m.val * 256 + y.val) * 256 + x.val) * 3 + c.val) / 768 % 256 = y.val; omega
  | ⟨2, _⟩ => show (((m.val * 256 + y.val) * 256 + x.val) * 3 + c.val) / 3 % 256 = x.val; omega
  | ⟨3, _⟩ => show (((m.val * 256 + y.val) * 256 + x.val) * 3 + c.val) % 3 = c.val; omega

/-- THE CORNER GATHER OF THE TWO PROGRAMS IS ONE ARRAY, for any image, any batch column and any row and column
    arrays: the kernel's gather of pixels from the image with the pairs `(Y, X)` is the reference's gather from the
    repeated image with the triples `(B, Y, X)`. -/
theorem corner_gather_eq (src : Image) (B : Column) (Y X : Words) :
    Host.gather Cert.KernelIdeal.gather_S256x256x3_S176x256x256x2_S176x256x256x3_3_01_n_n_01_3_113
        (kernelImage src) (kernelIndices Y X)
      = Host.gather Cert.ReferenceIdeal.gather_S176x256x256x3_S176x256x256x3_S176x256x256x3_3_012_n_n_012_3_1113
        (Cert.ReferenceIdeal.Read.val_main_v2 (F := Ideal) src) (referenceIndices B Y X) :=
  corner_gather_eq_of src _ (referenceImage_apply src) B Y X

/-- The first corner: the kernel's gather with the reference's first row and column arrays is the reference's first
    gathered corner. -/
theorem corner_gather_v83 (src : Image)
    (pts : (⟨Cert.ReferenceIdeal.S16x11x256x256x2, .f32⟩ : BufTy).Contents (Elt Ideal)) :
    Host.gather Cert.KernelIdeal.gather_S256x256x3_S176x256x256x2_S176x256x256x3_3_01_n_n_01_3_113
        (kernelImage src)
        (kernelIndices (Cert.ReferenceIdeal.Read.val_main_v72 (F := Ideal) pts)
          (Cert.ReferenceIdeal.Read.val_main_v77 (F := Ideal) pts))
      = Cert.ReferenceIdeal.Read.val_main_v83 (F := Ideal) src pts :=
  corner_gather_eq src (Cert.ReferenceIdeal.Read.val_main_v79 (F := Ideal)) _ _

/-- The second corner, likewise. -/
theorem corner_gather_v109 (src : Image)
    (pts : (⟨Cert.ReferenceIdeal.S16x11x256x256x2, .f32⟩ : BufTy).Contents (Elt Ideal)) :
    Host.gather Cert.KernelIdeal.gather_S256x256x3_S176x256x256x2_S176x256x256x3_3_01_n_n_01_3_113
        (kernelImage src)
        (kernelIndices (Cert.ReferenceIdeal.Read.val_main_v98 (F := Ideal) pts)
          (Cert.ReferenceIdeal.Read.val_main_v103 (F := Ideal) pts))
      = Cert.ReferenceIdeal.Read.val_main_v109 (F := Ideal) src pts :=
  corner_gather_eq src (Cert.ReferenceIdeal.Read.val_main_v105 (F := Ideal)) _ _

/-- The third corner, likewise. -/
theorem corner_gather_v135 (src : Image)
    (pts : (⟨Cert.ReferenceIdeal.S16x11x256x256x2, .f32⟩ : BufTy).Contents (Elt Ideal)) :
    Host.gather Cert.KernelIdeal.gather_S256x256x3_S176x256x256x2_S176x256x256x3_3_01_n_n_01_3_113
        (kernelImage src)
        (kernelIndices (Cert.ReferenceIdeal.Read.val_main_v124 (F := Ideal) pts)
          (Cert.ReferenceIdeal.Read.val_main_v129 (F := Ideal) pts))
      = Cert.ReferenceIdeal.Read.val_main_v135 (F := Ideal) src pts :=
  corner_gather_eq src (Cert.ReferenceIdeal.Read.val_main_v131 (F := Ideal)) _ _

/-- The fourth corner, likewise. -/
theorem corner_gather_v161 (src : Image)
    (pts : (⟨Cert.ReferenceIdeal.S16x11x256x256x2, .f32⟩ : BufTy).Contents (Elt Ideal)) :
    Host.gather Cert.KernelIdeal.gather_S256x256x3_S176x256x256x2_S176x256x256x3_3_01_n_n_01_3_113
        (kernelImage src)
        (kernelIndices (Cert.ReferenceIdeal.Read.val_main_v150 (F := Ideal) pts)
          (Cert.ReferenceIdeal.Read.val_main_v155 (F := Ideal) pts))
      = Cert.ReferenceIdeal.Read.val_main_v161 (F := Ideal) src pts :=
  corner_gather_eq src (Cert.ReferenceIdeal.Read.val_main_v157 (F := Ideal)) _ _

end Cert.Bridge
end
-- ==== Proof.OperandWeights.lean ====
import proofs.«166879_j29085518528593_2_alg».proof.Proof.KernelRun
import proofs.«166879_j29085518528593_2_alg».proof.Proof.GatherBridge

/-!
# The stacked weights the region finds

The host operations before the region compute the four bilinear weight arrays (north-west, north-east, south-west,
south-east: products of the fractional parts of the sample coordinates and their complements) by the same operations, in
the same order, as the reference; the kernel then gives each a leading unit axis and stacks the four. So the stacked weights
the region finds are the stack of the reference's own four weight stages of the sample-coordinates argument.
-/

set_option maxRecDepth 16384

noncomputable section

namespace Cert.Final

open Cert.KernelIdeal Cert.KernelIdeal.Gen Cert.KernelIdeal.Around Cert.KernelBlend Cert.KernelValue
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The image argument and the sample-coordinates argument on core `c`. -/
abbrev img (c : Dev nD) : Cert.Bridge.Image := m ((c : Thread nD τ).loc main_arg0)
abbrev pts (c : Dev nD) : (⟨S16x11x256x256x2, .f32⟩ : BufTy).Contents (Elt Ideal) := m ((c : Thread nD τ).loc main_arg1)

set_option maxHeartbeats 100000000 in
/-- The stacked weights the region finds are the stack of the four weight arrays — the very terms the reference
    computes them by (its stages 28, 29, 30, 31: north-west, north-east, south-west, south-east). -/
theorem Wt_eq (c : Dev nD) : Wt m c = stackWeights (val_main_v28 (F := Ideal) (pts m c)) (val_main_v29 (F := Ideal) (pts m c))
    (val_main_v30 (F := Ideal) (pts m c)) (val_main_v31 (F := Ideal) (pts m c)) := by
  dsimp only [Wt, V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

end Cert.Final

end
-- ==== Proof.OperandCorners.lean ====
import proofs.«166879_j29085518528593_2_alg».proof.Proof.KernelRun
import proofs.«166879_j29085518528593_2_alg».proof.Proof.GatherBridge
import proofs.«166879_j29085518528593_2_alg».proof.Proof.OperandWeights
/-!
# The stacked corner planes the region finds

Each masked corner is a select, under the corner's in-range mask broadcast over the channels, between the pixels gathered
from the image at the corner's (row, column) pairs and zero. The mask and the row and column arrays are computed by the same
host operations, in the same order, as the reference computes them; the kernel then moves the channels first and stacks the
four corners. So the stacked corner planes the region finds are the stack of four corners formed from the reference's own
mask, row and column stages — with the kernel's gather from the image itself.
-/

set_option maxRecDepth 16384

noncomputable section

namespace Cert.Final

open Cert.KernelIdeal Cert.KernelIdeal.Gen Cert.KernelIdeal.Around Cert.KernelBlend Cert.KernelValue
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ)

/-- One masked corner as the kernel's host operations form it: under the mask, the pixels gathered from the image at
    the (row, column) pairs; zero elsewhere. -/
def corner (mask : (⟨S176x256x256x3, .i1⟩ : BufTy).Contents (Elt Ideal)) (src : Cert.Bridge.Image) (Y X : Cert.Bridge.Words)
    (zero : (⟨S176x256x256x3, .f32⟩ : BufTy).Contents (Elt Ideal)) : (⟨S176x256x256x3, .f32⟩ : BufTy).Contents (Elt Ideal) :=
  select mask (Host.gather gather_S256x256x3_S176x256x256x2_S176x256x256x3_3_01_n_n_01_3_113
    (Cert.Bridge.kernelImage src) (Cert.Bridge.kernelIndices Y X)) zero

set_option maxHeartbeats 100000000 in
/-- The stacked corner planes the region finds are the stack of the four masked corners, each with the reference's own
    mask, row and column arrays — and the kernel's gather. -/
theorem Cn_eq (c : Dev nD) : Cn m c = stackCorners
    (corner (val_main_call2_v1 (F := Ideal) (pts m c)) (img m c) (val_main_v72 (F := Ideal) (pts m c)) (val_main_v77 (F := Ideal) (pts m c)) (val_main_call2_v2 (F := Ideal)))
    (corner (val_main_call5_v1 (F := Ideal) (pts m c)) (img m c) (val_main_v98 (F := Ideal) (pts m c)) (val_main_v103 (F := Ideal) (pts m c)) (val_main_call5_v2 (F := Ideal)))
    (corner (val_main_call8_v1 (F := Ideal) (pts m c)) (img m c) (val_main_v124 (F := Ideal) (pts m c)) (val_main_v129 (F := Ideal) (pts m c)) (val_main_call8_v2 (F := Ideal)))
    (corner (val_main_call11_v1 (F := Ideal) (pts m c)) (img m c) (val_main_v150 (F := Ideal) (pts m c)) (val_main_v155 (F := Ideal) (pts m c)) (val_main_call11_v2 (F := Ideal))) := by
  dsimp only [Cn, V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

end Cert.Final

end
-- ==== Proof.Final.lean ====
import proofs.«166879_j29085518528593_2_alg».proof.Defs
import proofs.«166879_j29085518528593_2_alg».proof.Proof.KernelRun
import proofs.«166879_j29085518528593_2_alg».proof.Proof.KernelAround
import proofs.«166879_j29085518528593_2_alg».proof.Proof.RefValue
import proofs.«166879_j29085518528593_2_alg».proof.Proof.GatherBridge
import proofs.«166879_j29085518528593_2_alg».proof.Proof.OperandWeights
import proofs.«166879_j29085518528593_2_alg».proof.Proof.OperandCorners
import proofs.«166879_j29085518528593_2_alg».proof.Proof.Gen.Pre_finite_inputs

/-!
# The two programs compute the same array

Bilinear sampling of one `256 × 256 × 3` image at `176 × 256 × 256` points. Both programs compute, by the same host
operations on the sample coordinates, four weight arrays `w₀ … w₃ : [176, 256, 256]` (north-west, north-east, south-west,
south-east) and four masked corner arrays `c₀ … c₃ : [176, 256, 256, 3]` — each a select, under the corner's in-range mask,
between a gather of pixels of the image and zero. The only difference before the blend is the gather: the kernel gathers
from the image with (row, column) pairs, the reference from the image repeated 176 times with (copy, row, column)
triples; every copy is the image, so the gathered arrays are equal.

The kernel stacks the weights and the channel-first corners, blends them block by block in its region as
`((w₀·c₀ + w₁·c₁) + w₂·c₂) + w₃·c₃`, moves the channels last and splits the images `176 = 16 × 11`; the reference forms
`((w₀·c₀ + w₂·c₂) + w₁·c₁) + w₃·c₃` and splits the images. Entry by entry the two are equal because addition of extended
reals is commutative and associative — no finiteness of the inputs is used.
-/

set_option maxRecDepth 16384

noncomputable section

namespace Cert.Final

open Cert.KernelIdeal Cert.KernelIdeal.Gen Cert.KernelIdeal.Around Cert.KernelBlend Cert.KernelValue
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## The corners agree -/

/-- The kernel's gather of a corner is the reference's, so the masked corners are the reference's stages 85, 111, 137, 163. -/
theorem corner_nw_eq (a0 : Cert.Bridge.Image) (a1 : (⟨S16x11x256x256x2, .f32⟩ : BufTy).Contents (Elt Ideal)) :
    corner (val_main_call2_v1 (F := Ideal) a1) a0 (val_main_v72 (F := Ideal) a1) (val_main_v77 (F := Ideal) a1) (val_main_call2_v2 (F := Ideal))
      = val_main_v85 (F := Ideal) a0 a1 := by
  unfold corner; rw [Cert.Bridge.corner_gather_v83]; rfl
theorem corner_ne_eq (a0 : Cert.Bridge.Image) (a1 : (⟨S16x11x256x256x2, .f32⟩ : BufTy).Contents (Elt Ideal)) :
    corner (val_main_call5_v1 (F := Ideal) a1) a0 (val_main_v98 (F := Ideal) a1) (val_main_v103 (F := Ideal) a1) (val_main_call5_v2 (F := Ideal))
      = val_main_v111 (F := Ideal) a0 a1 := by
  unfold corner; rw [Cert.Bridge.corner_gather_v109]; rfl
theorem corner_sw_eq (a0 : Cert.Bridge.Image) (a1 : (⟨S16x11x256x256x2, .f32⟩ : BufTy).Contents (Elt Ideal)) :
    corner (val_main_call8_v1 (F := Ideal) a1) a0 (val_main_v124 (F := Ideal) a1) (val_main_v129 (F := Ideal) a1) (val_main_call8_v2 (F := Ideal))
      = val_main_v137 (F := Ideal) a0 a1 := by
  unfold corner; rw [Cert.Bridge.corner_gather_v135]; rfl
theorem corner_se_eq (a0 : Cert.Bridge.Image) (a1 : (⟨S16x11x256x256x2, .f32⟩ : BufTy).Contents (Elt Ideal)) :
    corner (val_main_call11_v1 (F := Ideal) a1) a0 (val_main_v150 (F := Ideal) a1) (val_main_v155 (F := Ideal) a1) (val_main_call11_v2 (F := Ideal))
      = val_main_v163 (F := Ideal) a0 a1 := by
  unfold corner; rw [Cert.Bridge.corner_gather_v161]; rfl

/-! ## The results agree -/

/-- The kernel's result is the reference's result of the same arguments, entry by entry: with `n = 11 b + k` both are
    the four products weight · corner at `(n, h, w, c)`; the kernel adds them in the order north-west, north-east,
    south-west, south-east, the reference in the order north-west, south-west, north-east, south-east. -/
theorem result_eq (c : Dev nD) : unstack (blend (Wt m c) (Cn m c)) = val_main_v179 (F := Ideal) (img m c) (pts m c) := by
  funext i
  obtain ⟨b, k, h, w, cc, rfl⟩ : ∃ (b : Fin 16) (k : Fin 11) (h w : Fin 256) (cc : Fin 3), i = ix5 b k h w cc :=
    ⟨i 0, i 1, i 2, i 3, i 4, eq_ix5 i⟩
  have hb := b.isLt
  have hk := k.isLt
  rw [Wt_eq, Cn_eq, unstack_blend_apply _ _ _ _ _ _ _ _ b k h w cc ⟨11 * b.val + k.val, by omega⟩ rfl,
    Cert.RefValue.result_apply _ _ b k h w cc ⟨11 * b.val + k.val, by omega⟩ rfl,
    corner_nw_eq, corner_ne_eq, corner_sw_eq, corner_se_eq]
  exact congrArg (· + _) (add_right_comm _ _ _)

/-! ## The claims -/

theorem frame_k : Cert.frame_Kernel := fun m ρ _ => Cert.Kernel.Around.frame m ρ
theorem frame_ki : Cert.frame_KernelIdeal := fun m ρ _ => Cert.KernelIdeal.Around.frame m ρ
theorem frame_ri : Cert.frame_ReferenceIdeal := Cert.RefValue.frame_ri

/-- The ideal pass rewrote no operation: the idealization is the program's own text read at the ideal instance. -/
theorem preserves : Cert.preserves_Kernel_KernelIdeal := trivial

/-- From memories agreeing on the arguments both idealized programs run to the end with equal results and unchanged
    arguments: the kernel's result is the blend read off its run, the reference's its last stage, and the two are one
    array (`result_eq`). -/
theorem algebraic : Cert.algebraic_KernelIdeal_ReferenceIdeal := by
  intro m ρ m' ρ' _ hagree
  refine ⟨fun c => unstack (blend (Wt m c) (Cn m c)), kernel_run m ρ, ?_⟩
  refine (θ_run Cert.ReferenceIdeal.defs _ _).mono (fun _ h c => ⟨(h c).1.trans ?_, (h c).2⟩) (Cert.RefValue.ref_run m' ρ')
  rw [(hagree c).1, (hagree c).2]
  exact (result_eq m c).symm

end Cert.Final

end
-- ==== Proof.lean ====
/-
  Bilinear sampling of one `256 × 256 × 3` image at `16 × 11 × 256 × 256` points, zero outside the image: the kernel
  program (host operations, one region of 88 grid points blending blocks of two images, a transpose and a reshape)
  against the plain array program.

  * The three frames. The word-level kernel program and its idealization run to the end, fault nowhere and leave
    both arguments as launched: the body of the region loads its two input blocks, stores their blend into the whole
    output block, and no host operation writes an argument (`Proof/KernelAround.lean`, `Proof/KernelIdealAround.lean`:
    one text at any float instance). The reference is host operations only; its frame is its run with the result dropped.
  * The idealization rewrote no operation of the kernel program, so there is nothing to preserve.
  * At the ideal instance the two programs end with equal results. The region's output array is the blend
    `((w₀·c₀ + w₁·c₁) + w₂·c₂) + w₃·c₃` of the stacked weights and the stacked corner planes
    (`Proof/KernelBlend.lean`, `Proof/BlendArray.lean`, `Proof/KernelRun.lean`); weights, masks, row and column arrays
    are the reference's own stages (`Proof/OperandWeights.lean`, `Proof/OperandCorners.lean`); the kernel's gather of
    pixels from the image equals the reference's gather from the image repeated 176 times, every copy being the image
    (`Proof/LibGatherPixels.lean`, `Proof/GatherBridge.lean`); the reference sums the same four products in the order
    `((w₀·c₀ + w₂·c₂) + w₁·c₁) + w₃·c₃` (`Proof/RefValue.lean`), and addition of extended reals is commutative and
    associative (`Proof/Final.lean`). The precondition is not used.
-/
import proofs.«166879_j29085518528593_2_alg».proof.Defs
import proofs.«166879_j29085518528593_2_alg».proof.Proof.Gen.Kernel
import proofs.«166879_j29085518528593_2_alg».proof.Proof.Gen.KernelIdeal
import proofs.«166879_j29085518528593_2_alg».proof.Proof.Gen.ReferenceIdeal
import proofs.«166879_j29085518528593_2_alg».proof.Proof.Gen.Pre_finite_inputs
import proofs.«166879_j29085518528593_2_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Final.frame_k, Cert.Final.frame_ki, Cert.Final.frame_ri, Cert.Final.preserves, Cert.Final.algebraic⟩

end Cert.Proof

end
